-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50257 : Shape := ⟨2, ![2048, 50257]⟩
abbrev S_ : Shape := ⟨0, ![]⟩

class Facts : Prop where
  bcast_S_S2048x50257 : S_.BroadcastsInDim S2048x50257 (![] : Fin 0 → Fin S2048x50257.rank)
  reducesTo_S2048x50257_S_d0_1 : S2048x50257.ReducesTo [0, 1] S_
  h_S_ : 0 < S_.numel

variable [Facts]

def fn {F : FTy → Type} [FloatOps F] (main_arg0 : FVec F S2048x50257 .f32) (main_arg1 : FVec F S2048x50257 .f32) : IVec S_ 1 :=
  let main_v0 : FVec F S2048x50257 .f32 := Host.absf main_arg0
  let main_cst : FVec F S_ .f32 := constant S_ .f32 0x7F800000#32
  let main_v1 : FVec F S2048x50257 .f32 := broadcastInDim S2048x50257 ![] bcast_S_S2048x50257 main_cst
  let main_v2 : IVec S2048x50257 1 := cmpf .olt main_v0 main_v1
  let main_c : IVec S_ 1 := constantI S_ 1 1#1
  let main_v3 : IVec S_ 1 := (fun x v => Host.reduce IntOp.andi x v reducesTo_S2048x50257_S_d0_1 h_S_) main_v2 main_c
  let main_v4 : FVec F S2048x50257 .f32 := Host.absf main_arg1
  let main_cst_0 : FVec F S_ .f32 := constant S_ .f32 0x7F800000#32
  let main_v5 : FVec F S2048x50257 .f32 := broadcastInDim S2048x50257 ![] bcast_S_S2048x50257 main_cst_0
  let main_v6 : IVec S2048x50257 1 := cmpf .olt main_v4 main_v5
  let main_c_1 : IVec S_ 1 := constantI S_ 1 1#1
  let main_v7 : IVec S_ 1 := (fun x v => Host.reduce IntOp.andi x v reducesTo_S2048x50257_S_d0_1 h_S_) main_v6 main_c_1
  let main_v8 : IVec S_ 1 := andi main_v3 main_v7
  let main_cst_2 : FVec F S_ .f32 := constant S_ .f32 0x00000000#32
  let main_v9 : FVec F S2048x50257 .f32 := broadcastInDim S2048x50257 ![] bcast_S_S2048x50257 main_cst_2
  let main_v10 : IVec S2048x50257 1 := cmpf .ogt main_arg0 main_v9
  let main_c_3 : IVec S_ 1 := constantI S_ 1 1#1
  let main_v11 : IVec S_ 1 := (fun x v => Host.reduce IntOp.andi x v reducesTo_S2048x50257_S_d0_1 h_S_) main_v10 main_c_3
  let main_v12 : IVec S_ 1 := andi main_v8 main_v11
  main_v12
-- ==== Kernel.lean ====
abbrev S2048x50257 : Shape := ⟨2, ![2048, 50257]⟩
abbrev S2x1x1 : Shape := ⟨3, ![2, 1, 1]⟩
abbrev S512x2560 : Shape := ⟨2, ![512, 2560]⟩
abbrev S1x1x1 : Shape := ⟨3, ![1, 1, 1]⟩
abbrev S1x1 : Shape := ⟨2, ![1, 1]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S2048x50257, .f32⟩
  | .hbm, ⟨1, _⟩ => ⟨S2048x50257, .f32⟩
  | .hbm, ⟨2, _⟩ => ⟨S2x1x1, .f32⟩
  | .hbm, ⟨3, _⟩ => ⟨S_, .f32⟩
  | .hbm, ⟨4, _⟩ => ⟨S1x1, .f32⟩
  | .local _ .vmem, ⟨0, _⟩ => ⟨S512x2560, .f32⟩
  | .local _ .vmem, ⟨1, _⟩ => ⟨S512x2560, .f32⟩
  | .local _ .vmem, ⟨2, _⟩ => ⟨S512x2560, .f32⟩
  | .local _ .vmem, ⟨3, _⟩ => ⟨S512x2560, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S2048x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 20], ![false, false, false]⟩

def k0_cond2 (i : grid0.Coords) : BitVec 1 :=
  let arg1 : BitVec 32 := BitVec.ofNat 32 (i 1).val
  let c1_i32 : BitVec 32 := 1#32
  let v26 : BitVec 1 := Scalar.cmpi .eq arg1 c1_i32
  let arg2 : BitVec 32 := BitVec.ofNat 32 (i 2).val
  let c19_i32 : BitVec 32 := 19#32
  let v27 : BitVec 1 := Scalar.cmpi .eq arg2 c19_i32
  let v28 : BitVec 1 := Scalar.andi v26 v27
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x2560_S512x2560_0_0 : ∀ a, (![0, 0] : Fin 2 → Nat) a + S512x2560.size a ≤ S512x2560.size a
  h_S512x2560 : 0 < S512x2560.numel
  iota_S512x2560_d1_w32 : S512x2560.Iotas .tc 32 [1]
  reduces_S512x2560_S512 : S512x2560.Reduces [1] S512
  shapeCasts_S512_S512x1 : S512.ShapeCasts S512x1
  reduces_S512x1_S1 : S512x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S1x1_d0 : S2x1x1.ReducesTo [0] S1x1
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x2560.size a < S2048x50257.size a
  hwx0_0 : ∀ i : grid0.Coords, EltTy.bits .f32 = 32 ∨ (Rect.unit (s := S2048x50257) (fun a => cc0_transform_0 i a * S512x2560.size a) (fun a => (Pipeline.Clip.of (cc0_transform_0 i a) (S512x2560.size a) (S2048x50257.size a)).extent (S512x2560.size a)) fun a => Pipeline.Clip.inb (Pipeline.Clip.ok_of (hstart0_0 i a))).WholeWords (EltTy.packing .f32)
  hwxs0_0 : ∀ i : grid0.Coords, EltTy.bits .f32 = 32 ∨ (Rect.unit (s := S512x2560) (fun _ => 0) (fun a => (Pipeline.Clip.of (cc0_transform_0 i a) (S512x2560.size a) (S2048x50257.size a)).extent (S512x2560.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x2560.size a < S2048x50257.size a
  hwx0_1 : ∀ i : grid0.Coords, EltTy.bits .f32 = 32 ∨ (Rect.unit (s := S2048x50257) (fun a => cc0_transform_1 i a * S512x2560.size a) (fun a => (Pipeline.Clip.of (cc0_transform_1 i a) (S512x2560.size a) (S2048x50257.size a)).extent (S512x2560.size a)) fun a => Pipeline.Clip.inb (Pipeline.Clip.ok_of (hstart0_1 i a))).WholeWords (EltTy.packing .f32)
  hwxs0_1 : ∀ i : grid0.Coords, EltTy.bits .f32 = 32 ∨ (Rect.unit (s := S512x2560) (fun _ => 0) (fun a => (Pipeline.Clip.of (cc0_transform_1 i a) (S512x2560.size a) (S2048x50257.size a)).extent (S512x2560.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpecClip (Memref.whole main_arg0) S512x2560.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S512x2560.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x50257 : Shape := ⟨2, ![2048, 50257]⟩
abbrev S_ : Shape := ⟨0, ![]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S2048x50257, .f32⟩
  | .hbm, ⟨1, _⟩ => ⟨S2048x50257, .f32⟩
  | .hbm, ⟨2, _⟩ => ⟨S2048x50257, .f32⟩
  | .hbm, ⟨3, _⟩ => ⟨S2048x50257, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1, .f32⟩
  | _, _ => ⟨S2048x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  reducesTo_S2048x50257_S_d0_1 : S2048x50257.ReducesTo [0, 1] S_
  h_S_ : 0 < S_.numel
  shapeCasts_S_S1x1 : S_.ShapeCasts S1x1

variable [Facts₀]

class Facts : Prop extends Facts₀ where

variable [Facts]
-- ==== Proof.RunBits.lean ====
import proofs.«119572_j19473381720640_2_alg».proof.Proof.Gen.Kernel.Frame
import proofs.«119572_j19473381720640_2_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! The kernel body at one grid point, on any whole staging memrefs, in the three situations the grid meets.

At a point the body (1) if the point is the first of its half's sweep, stores the zero word into the 1×1
accumulator; (2) loads the two 512×2560 blocks, forms the masked sum of `log a · b` over the block and adds it to
the accumulator; (3) if the point is the last of its half's sweep, stores `0 − accumulator` into the 1×1×1
output block. Each triple says: the two input buffers are left as found, the accumulator ends at the
payload of step (2) over what it held (or over the zero word at a first point), and at a last point the output
buffer ends at the negated accumulator (otherwise it is left as found). -/

/-- The first conditional of the body, from the grid coordinates: the point is the first of its half's sweep
    (second and third coordinates zero). -/
abbrev condZ (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

theorem zero2 : (![0, 0] : Fin 2 → Nat) = fun _ => 0 := funext fun a => by fin_cases a <;> rfl
theorem zero3 : (![0, 0, 0] : Fin 3 → Nat) = fun _ => 0 := funext fun a => by fin_cases a <;> rfl

/-- A buffer whose last store went through its whole rectangle reads back as that store's payload, whatever
    it held and whatever was stored before. -/
theorem read_store_whole_cons {Val : EltTy → Type} [∀ e, Nonempty (Val e)] {sg : RefSig} {κ : Kind} {sp : Space} {S : Shape} {e : EltTy}
    (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hz inb y⟩), View.canon_cons_unit_zero hz]

theorem read_store_whole {Val : EltTy → Type} [∀ e, Nonempty (Val e)] {sg : RefSig} {κ : Kind} {sp : Space} {S : Shape} {e : EltTy}
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w :=
  read_store_whole_cons v f hz inb w []

/-- A middle point: neither conditional taken. -/
theorem run_mid (c : Dev nD) (i : grid0.Coords)
    (arg3 : Memref sig .tc .vmem S512x2560 .f32) (harg3 : arg3.IsWhole) (arg4 : Memref sig .tc .vmem S512x2560 .f32) (harg4 : arg4.IsWhole)
    (arg5 : Memref sig .tc .vmem S1x1x1 .f32) (harg5 : arg5.IsWhole) (arg6 : Memref sig .tc .vmem S1x1 .f32) (harg6 : arg6.IsWhole)
    (hc1 : ¬condZ i) (hc2 : ¬(k0_cond2 i = 1#1))
    (x0 x1 : Vec F S512x2560 .f32) (x2 : Vec F S1x1x1 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay2 i x0 x1 xs)) -∗ K ⟨⟩))
      ⊢ wp frame (wpE (defs₀ (F := F)) Variants.none c none) E (cc0__loss_kernel i arg3 harg3 arg4 harg4 arg5 harg5 arg6 harg6) K := by
  simp only [cc0__loss_kernel_eq_skeleton]; unfold cc0__loss_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [read_store_whole _ _ zero2]
  simp only [View.readAt_eq_ld, harg3.read_unread, harg4.read_unread, harg6.read_unread, View.ld_unit_zero (S := S512x2560) zero2, View.ld_unit_zero (S := S1x1) zero2]

/-- A first point of a half's sweep: the accumulator is zeroed, then takes the block's sum; the output buffer is untouched. -/
theorem run_first (c : Dev nD) (i : grid0.Coords)
    (arg3 : Memref sig .tc .vmem S512x2560 .f32) (harg3 : arg3.IsWhole) (arg4 : Memref sig .tc .vmem S512x2560 .f32) (harg4 : arg4.IsWhole)
    (arg5 : Memref sig .tc .vmem S1x1x1 .f32) (harg5 : arg5.IsWhole) (arg6 : Memref sig .tc .vmem S1x1 .f32) (harg6 : arg6.IsWhole)
    (hc1 : condZ i) (hc2 : ¬(k0_cond2 i = 1#1))
    (x0 x1 : Vec F S512x2560 .f32) (x2 : Vec F S1x1x1 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay2 i x0 x1 (k0_pay1 (F := F)))) -∗ K ⟨⟩))
      ⊢ wp frame (wpE (defs₀ (F := F)) Variants.none c none) E (cc0__loss_kernel i arg3 harg3 arg4 harg4 arg5 harg5 arg6 harg6) K := by
  simp only [cc0__loss_kernel_eq_skeleton]; unfold cc0__loss_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  rw [read_store_whole_cons _ _ zero2]
  simp only [View.readAt_eq_ld, harg3.read_unread, harg4.read_unread, harg6.read_unread, View.ld_unit_zero (S := S512x2560) zero2, View.ld_unit_zero (S := S1x1) zero2,
    View.readCov_unit_zero (S := S1x1) _ zero2]

/-- A last point of a half's sweep: the accumulator takes the block's sum, and the output buffer ends at zero minus it. -/
theorem run_last (c : Dev nD) (i : grid0.Coords)
    (arg3 : Memref sig .tc .vmem S512x2560 .f32) (harg3 : arg3.IsWhole) (arg4 : Memref sig .tc .vmem S512x2560 .f32) (harg4 : arg4.IsWhole)
    (arg5 : Memref sig .tc .vmem S1x1x1 .f32) (harg5 : arg5.IsWhole) (arg6 : Memref sig .tc .vmem S1x1 .f32) (harg6 : arg6.IsWhole)
    (hc1 : ¬condZ i) (hc2 : k0_cond2 i = 1#1)
    (x0 x1 : Vec F S512x2560 .f32) (x2 : Vec F S1x1x1 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xs
        ∗ (iprop(owns (c : Thread nD τ) arg3 fullShare x0 ∗ owns (c : Thread nD τ) arg4 fullShare x1
            ∗ owns (c : Thread nD τ) arg5 fullShare (k0_pay3 (k0_pay2 i x0 x1 xs))
            ∗ owns (c : Thread nD τ) arg6 fullShare (k0_pay2 i x0 x1 xs)) -∗ K ⟨⟩))
      ⊢ wp frame (wpE (defs₀ (F := F)) Variants.none c none) E (cc0__loss_kernel i arg3 harg3 arg4 harg4 arg5 harg5 arg6 harg6) K := by
  simp only [cc0__loss_kernel_eq_skeleton]; unfold cc0__loss_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  sl_unfold_run_names
  isplitl [H2]
  · iexists _; isplitr
    swap; · iexact H2
    ipureintro
    rw [read_store_whole _ _ zero3]
    simp only [View.readAt_eq_ld, harg3.read_unread, harg4.read_unread, harg6.read_unread, View.ld_unit_zero (S := S512x2560) zero2, View.ld_unit_zero (S := S1x1) zero2,
      View.readCov_unit_zero (S := S1x1) _ zero2]
  iexists _; isplitr
  swap; · iexact HS
  ipureintro
  rw [read_store_whole _ _ zero2]
  simp only [View.readAt_eq_ld, harg3.read_unread, harg4.read_unread, harg6.read_unread, View.ld_unit_zero (S := S512x2560) zero2, View.ld_unit_zero (S := S1x1) zero2]

end Cert.Kernel.Hand

end
-- ==== Proof.MaskBits.lean ====
import proofs.«119572_j19473381720640_2_alg».proof.Proof.Gen.Kernel.Skeleton
import proofs.«119572_j19473381720640_2_alg».proof.Proof.Gen.Kernel.Points

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Window)

variable {F : FTy → Type} [FloatOps F]

/-! The last column band of the array is ragged: the band of 2560 columns that starts at column 48640 has
only 1617 columns inside the array, and the staged block's remaining 943 columns hold words nothing names. The
body keeps a lane only when its global column `j · 2560 + col` is below 50257, so what it adds to the
accumulator does not depend on those words. -/

/-- The lanes the body keeps at a grid point: the global column is inside the array. -/
def mask (i : grid0.Coords) : IVec S512x2560 1 :=
  cmpi .slt (addi (broadcast S512x2560 (Scalar.muli (BitVec.ofNat 32 (i 2).val) 2560#32)) (iota .tc S512x2560 32 [1] iota_S512x2560_d1_w32))
    (broadcast S512x2560 50257#32)

/-- Two pairs of blocks that agree on the kept lanes add the same amount to the accumulator. -/
theorem pay2_congr (i : grid0.Coords) (a a' b b' : Vec F S512x2560 .f32) (v : Vec F S1x1 .f32)
    (h : ∀ y, mask i y = 1#1 → a y = a' y ∧ b y = b' y) : k0_pay2 i a b v = k0_pay2 i a' b' v := by
  have e : select (mask i) (mulf (log a) b) (broadcast S512x2560 (Scalar.ofBits .f32 0x00000000#32))
      = select (mask i) (mulf (log a') b') (broadcast S512x2560 (Scalar.ofBits .f32 0x00000000#32)) := by
    funext y
    by_cases hm : mask i y = 1#1
    · obtain ⟨ha, hb⟩ := h y hm
      simp only [select, mulf, log, ha, hb]
    · have hm' : ¬(mask i y = 1) := hm
      simp only [select, Scalar.select, if_neg hm']
  unfold mask at e
  unfold k0_pay2
  dsimp only
  rw [e]

/-- The comparison the body makes, on numbers: for a column band `j < 20` and a lane `col < 2560` the 32-bit
    signed test `j · 2560 + col < 50257` is the test on the naturals (nothing wraps). -/
theorem lane_lt (j col : ℕ) (hj : j < 20) (hcol : col < 2560)
    (h : IntOp.cmpi .slt (IntOp.addi (Scalar.muli (BitVec.ofNat 32 j) 2560#32) (BitVec.ofNat 32 col)) 50257#32 = 1#1) :
    j * 2560 + col < 50257 := by
  have hx : (BitVec.ofNat 32 j * 2560#32 + BitVec.ofNat 32 col).toNat = j * 2560 + col := by
    simp only [BitVec.toNat_add, BitVec.toNat_mul, BitVec.toNat_ofNat]
    omega
  have hs : (BitVec.ofNat 32 j * 2560#32 + BitVec.ofNat 32 col).slt 50257#32 = true := by
    simp only [IntOp.cmpi, IntOp.addi, Scalar.muli, IntOp.muli] at h
    rcases hb : (BitVec.ofNat 32 j * 2560#32 + BitVec.ofNat 32 col).slt 50257#32 with _ | _
    · rw [hb] at h; exact absurd h (by decide)
    · rfl
  rw [BitVec.slt, decide_eq_true_eq, BitVec.toInt_eq_toNat_cond, BitVec.toInt_eq_toNat_cond, hx] at hs
  simp only [BitVec.toNat_ofNat] at hs
  omega

end Cert.Kernel.Hand

end
-- ==== Proof.GridBits.lean ====
import proofs.«119572_j19473381720640_2_alg».proof.Proof.RunBits
import proofs.«119572_j19473381720640_2_alg».proof.Proof.MaskBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid, decided

The grid has 80 points `t = c · 40 + i · 20 + j` (half `c`, row band `i`, column band `j`). A half's sweep starts at
`t ≡ 0` and ends at `t ≡ 39 (mod 40)`; only there is the output block stored and written back. -/

theorem hcondZ : ∀ t : Fin cfg0.N, condZ (grid0.coords t) ↔ t.val % 40 = 0 :=
  (by decide +kernel : ∀ t : Fin grid0.N, condZ (grid0.coords t) ↔ t.val % 40 = 0)
theorem hcond2 : ∀ t : Fin cfg0.N, k0_cond2 (grid0.coords t) = 1#1 ↔ t.val % 40 = 39 :=
  (by decide +kernel : ∀ t : Fin grid0.N, k0_cond2 (grid0.coords t) = 1#1 ↔ t.val % 40 = 39)
theorem idle2_iff : ∀ t : Fin cfg0.N, cfg0.idle 2 (grid0.coords t) = true ↔ t.val % 40 ≠ 39 :=
  (by decide +kernel : ∀ t : Fin grid0.N, idle0 2 (grid0.coords t) = true ↔ t.val % 40 ≠ 39)
theorem live2 (t : Fin cfg0.N) (h : t.val % 40 = 39) : cfg0.idle 2 (grid0.coords t) = false := by
  cases hi : cfg0.idle 2 (grid0.coords t)
  · rfl
  · exact absurd h ((idle2_iff t).mp hi)
theorem noflush2 (t : Fin cfg0.N) (h : ¬t.val % 40 = 39) : (cfg0.win 2).flush t = false := by
  cases hf : (cfg0.win 2).flush t
  · rfl
  · exact absurd ((flush0_2 t).mp hf) h
theorem coord2 : ∀ t : Fin cfg0.N, ((grid0.coords t) 2).val = t.val % 20 :=
  (by decide +kernel : ∀ t : Fin grid0.N, ((grid0.coords t) 2).val = t.val % 20)
/-- How much of a block a transfer moves: all 512 rows, and the columns of the band that lie inside the array. -/
theorem xsize0 : ∀ t : Fin cfg0.N, win0_0.xsize (grid0.coords t) 0 = 512 ∧ win0_0.xsize (grid0.coords t) 1 = min 2560 (50257 - t.val % 20 * 2560) :=
  (by decide +kernel : ∀ t : Fin grid0.N, win0_0.xsize (grid0.coords t) 0 = 512 ∧ win0_0.xsize (grid0.coords t) 1 = min 2560 (50257 - t.val % 20 * 2560))
theorem xsize1 : ∀ t : Fin cfg0.N, win0_1.xsize (grid0.coords t) 0 = 512 ∧ win0_1.xsize (grid0.coords t) 1 = min 2560 (50257 - t.val % 20 * 2560) :=
  (by decide +kernel : ∀ t : Fin grid0.N, win0_1.xsize (grid0.coords t) 0 = 512 ∧ win0_1.xsize (grid0.coords t) 1 = min 2560 (50257 - t.val % 20 * 2560))

/-- A kept lane's global column is inside the array. -/
theorem kept_lt (t : Fin cfg0.N) (y : S512x2560.Idx) (h : mask (grid0.coords t) y = 1#1) : t.val % 20 * 2560 + (y 1).val < 50257 := by
  refine lane_lt (t.val % 20) (y 1).val (Nat.mod_lt _ (by omega)) (y 1).isLt ?_
  have h' := h
  simp only [mask, cmpi, addi, broadcast, iota, List.foldl, Nat.zero_mul, Nat.zero_add, coord2 t] at h'
  exact h'

/-- So a kept lane lies in the part of the block the fetch filled from the array. -/
theorem moved0 (t : Fin cfg0.N) (y : S512x2560.Idx) (h : mask (grid0.coords t) y = 1#1) : win0_0.moved (grid0.coords t) y = true := by
  rw [Window.moved_iff]
  obtain ⟨e0, e1⟩ := xsize0 t
  have hlt := kept_lt t y h
  have h0 : (y 0).val < 512 := (y 0).isLt
  have h1 : (y 1).val < 2560 := (y 1).isLt
  intro a
  match a with
  | ⟨0, _⟩ => show (y 0).val < win0_0.xsize (grid0.coords t) 0; rw [e0]; exact h0
  | ⟨1, _⟩ => show (y 1).val < win0_0.xsize (grid0.coords t) 1; rw [e1]; omega
theorem moved1 (t : Fin cfg0.N) (y : S512x2560.Idx) (h : mask (grid0.coords t) y = 1#1) : win0_1.moved (grid0.coords t) y = true := by
  rw [Window.moved_iff]
  obtain ⟨e0, e1⟩ := xsize1 t
  have hlt := kept_lt t y h
  have h0 : (y 0).val < 512 := (y 0).isLt
  have h1 : (y 1).val < 2560 := (y 1).isLt
  intro a
  match a with
  | ⟨0, _⟩ => show (y 0).val < win0_1.xsize (grid0.coords t) 0; rw [e0]; exact h0
  | ⟨1, _⟩ => show (y 1).val < win0_1.xsize (grid0.coords t) 1; rw [e1]; omega

theorem fill_agree {G : Pipeline.Grid} (w : Window sig G) {α : Type} (i : G.Coords) (d d' : w.block.Idx → α) (g : (w.xblock i).Idx → α)
    (y : w.block.Idx) (h : w.moved i y = true) : w.fill i d g y = w.fill i d' g y := by
  unfold Window.fill; rw [dif_pos h, dif_pos h]

/-- What a point adds to the accumulator does not depend on the words past the array's edge in the two staged blocks. -/
theorem pay2_fill (t : Fin cfg0.N) (d0 d0' d1 d1' : S512x2560.Idx → Elt F .f32)
    (g0 : (win0_0.xblock (grid0.coords t)).Idx → Elt F .f32) (g1 : (win0_1.xblock (grid0.coords t)).Idx → Elt F .f32) (v : Vec F S1x1 .f32) :
    k0_pay2 (grid0.coords t) (win0_0.fill (grid0.coords t) d0 g0) (win0_1.fill (grid0.coords t) d1 g1) v
      = k0_pay2 (grid0.coords t) (win0_0.fill (grid0.coords t) d0' g0) (win0_1.fill (grid0.coords t) d1' g1) v :=
  pay2_congr _ _ _ _ _ _ fun y hm => ⟨fill_agree win0_0 _ d0 d0' g0 y (moved0 t y hm), fill_agree win0_1 _ d1 d1' g1 y (moved1 t y hm)⟩

end Cert.Kernel.Hand

end
-- ==== Proof.DataBits.lean ====
import proofs.«119572_j19473381720640_2_alg».proof.Proof.GridBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the accumulator -/

/-- The two arguments' blocks at point `t` as the fetch reads them: the block's part inside the array. -/
def blk0 (c : Dev nD) (t : Fin cfg0.N) : (win0_0.xblock (grid0.coords t)).Idx → Elt F .f32 :=
  (win0_0.blk t).view.read (Elt F) (V m c main_arg0)
def blk1 (c : Dev nD) (t : Fin cfg0.N) : (win0_1.xblock (grid0.coords t)).Idx → Elt F .f32 :=
  (win0_1.blk t).view.read (Elt F) (V m c main_arg1)

/-- The staged 512×2560 blocks with the columns past the array's edge filled by the zero word (a filler the proof
    picks; nothing the body keeps depends on it). -/
def Z0 (c : Dev nD) (t : Fin cfg0.N) : S512x2560.Idx → Elt F .f32 :=
  win0_0.fill (grid0.coords t) (fun _ => Scalar.ofBits .f32 0#32) (blk0 m c t)
def Z1 (c : Dev nD) (t : Fin cfg0.N) : S512x2560.Idx → Elt F .f32 :=
  win0_1.fill (grid0.coords t) (fun _ => Scalar.ofBits .f32 0#32) (blk1 m c t)

/-- THE ACCUMULATION: what the 1×1 accumulator holds after the body at position `n`: the point's masked block sum added
    to what the point before left — to the zero word at the first point of a half's sweep. -/
def acc (c : Dev nD) : (n : ℕ) → n < cfg0.N → Vec F S1x1 .f32
  | 0, h => k0_pay2 (grid0.coords ⟨0, h⟩) (Z0 m c ⟨0, h⟩) (Z1 m c ⟨0, h⟩) (k0_pay1 (F := F))
  | n + 1, h => k0_pay2 (grid0.coords ⟨n + 1, h⟩) (Z0 m c ⟨n + 1, h⟩) (Z1 m c ⟨n + 1, h⟩)
      (if (n + 1) % 40 = 0 then k0_pay1 (F := F) else acc c n (Nat.lt_of_succ_lt h))

theorem acc_first (c : Dev nD) (t : Fin cfg0.N) (h0 : t.val % 40 = 0) :
    acc m c t.val t.isLt = k0_pay2 (grid0.coords t) (Z0 m c t) (Z1 m c t) (k0_pay1 (F := F)) := by
  obtain ⟨n, hn⟩ := t
  cases n with
  | zero => rfl
  | succ n => simp only [acc]; rw [if_pos h0]

theorem acc_next (c : Dev nD) (t : Fin cfg0.N) (h0 : ¬t.val % 40 = 0) :
    acc m c t.val t.isLt = k0_pay2 (grid0.coords t) (Z0 m c t) (Z1 m c t)
      (acc m c (t.val - 1) (Nat.lt_of_le_of_lt (Nat.sub_le _ _) t.isLt)) := by
  obtain ⟨n, hn⟩ := t
  cases n with
  | zero => exact absurd (Nat.zero_mod 40) h0
  | succ n => simp only [acc]; rw [if_neg h0]; rfl

/-! ## The invariant and the proof data -/

/-- The kernel's one scratch operand: the 1×1 accumulator, a whole scoped buffer. -/
abbrev scM : Memref sig .tc .vmem S1x1 .f32 := Memref.whole cc0_scratch0

theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Before the first point the accumulator holds anything; after point `n` it holds `acc n`. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (acc m c n hn)) ∗ (∃ r, prngReg c r)) := rfl
theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-- The proof data of the one pipeline on core `c`: the arrays as the region finds them; after the body at point `t` the
    two inputs' buffers at their blocks (zero-filled past the edge), the output's at zero minus the accumulator; the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => Z0 m c t
    | ⟨1, _⟩ => Z1 m c t
    | ⟨2, _⟩ => k0_pay3 (acc m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = Z0 m c t := by dsimp only [dats]
theorem after0_1 (c : Dev nD) (t : Fin cfg0.N) : (dats m 0 c).after 1 t = Z1 m c t := by dsimp only [dats]
theorem after0_2 (c : Dev nD) (t : Fin cfg0.N) : (dats m 0 c).after 2 t = k0_pay3 (acc m c t.val t.isLt) := by dsimp only [dats]

/-- What the body finds in the inputs' buffers: the block just fetched, `d` past the array's edge. -/
theorem before_0 (c : Dev nD) (t : Fin cfg0.N) (d) :
    (dats m 0 c).before 0 t d = win0_0.fill (grid0.coords t) d (blk0 m c t) := by
  unfold Dat.before; rw [if_pos (fetch0_0 t)]; rfl
theorem before_1 (c : Dev nD) (t : Fin cfg0.N) (d) :
    (dats m 0 c).before 1 t d = win0_1.fill (grid0.coords t) d (blk1 m c t) := by
  unfold Dat.before; rw [if_pos (fetch0_1 t)]; rfl

/-- What the obligation asks of the inputs' buffers afterwards: the block on the part inside the array. -/
theorem leaves0 (c : Dev nD) (t : Fin cfg0.N) :
    (dats m 0 c).leaves 0 t = iprop(∃ d, owns (c : Thread nD τ) (st0_0 t) fullShare (win0_0.fill (grid0.coords t) d (blk0 m c t))) := by
  have e : win0_0.cut (grid0.coords t) ((dats m 0 c).after 0 t) = blk0 m c t := by
    rw [after0_0]; exact win0_0.cut_fill _ _ _
  rw [← e]
theorem leaves1 (c : Dev nD) (t : Fin cfg0.N) :
    (dats m 0 c).leaves 1 t = iprop(∃ d, owns (c : Thread nD τ) (st0_1 t) fullShare (win0_1.fill (grid0.coords t) d (blk1 m c t))) := by
  have e : win0_1.cut (grid0.coords t) ((dats m 0 c).after 1 t) = blk1 m c t := by
    rw [after0_1]; exact win0_1.cut_fill _ _ _
  rw [← e]
/-- and of the output's at a last point of a half: zero minus the accumulator. -/
theorem leaves2_live (c : Dev nD) (t : Fin cfg0.N) (h : t.val % 40 = 39) :
    (dats m 0 c).leaves 2 t = owns (c : Thread nD τ) (st0_2 t) fullShare (k0_pay3 (acc m c t.val t.isLt)) := by
  unfold Dat.leaves; rw [live2 t h, after0_2]

end Cert.Kernel.Hand

end
-- ==== Proof.FrameBits.lean ====
import proofs.«119572_j19473381720640_2_alg».proof.Proof.DataBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, what the core owes, and the three windows' current
    staging buffers at what they then hold. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

set_option maxHeartbeats 3200000 in
/-- The body at any point. The two inputs' buffers hold their blocks with some words `d` past the array's edge; the
    point is a first, a middle or a last point of its half's sweep; the matching triple applies; the accumulator
    comes back at `acc t` because the payload does not see the words `d`; the inputs' buffers come back as found,
    and the output's buffer as found, or at zero minus the accumulator at a last point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t]
  have hN : t.val < 80 := lt_of_lt_of_eq t.isLt (show cfg0.N = 80 from N_0)
  by_cases h0 : t.val % 40 = 0
  · have h39 : ¬t.val % 40 = 39 := by omega
    rw [Dat.leaves_idle (dats m 0 c) 2 t ((idle2_iff t).mpr h39) (noflush2 t h39)]
    rw [acc_first m c t h0]
    unfold Z0 Z1
    by_cases hz : t.val = 0
    · rw [PhiS_castSucc m c t, PhiS_zero m c _ _ hz, PhiA0_eq]
      iintro ⟨⟨⟨%xs, HS⟩, Hg⟩, Ho, ⟨%d0, H0⟩, ⟨%d1, H1⟩, ⟨%d2, H2⟩⟩
      rw [before_0 m c t d0, before_1 m c t d1]
      iapply (run_first c (grid0.coords t) _ _ _ _ _ _ _ _ ((hcondZ t).mpr h0) (fun h => h39 ((hcond2 t).mp h)) _ _ _ _ Set.univ _)
      isplitl [H0]; · iexact H0
      isplitl [H1]; · iexact H1
      isplitl [H2]; · iexact H2
      isplitl [HS]; · iexact HS
      iintro ⟨H0, H1, H2, HS⟩
      rw [pay2_fill t d0 (fun _ => Scalar.ofBits .f32 0#32) d1 (fun _ => Scalar.ofBits .f32 0#32) (blk0 m c t) (blk1 m c t)]
      isplitl [HS Hg]
      · isplitl [HS]; · iexact HS
        iexact Hg
      isplitl [Ho]; · iexact Ho
      isplitl [H0]; · iexists d0; iexact H0
      isplitl [H1]; · iexists d1; iexact H1
      iexists d2; iexact H2
    · rw [PhiS_castSucc m c t, PhiS_pos m c _ _ hz]
      iintro ⟨⟨HS, Hg⟩, Ho, ⟨%d0, H0⟩, ⟨%d1, H1⟩, ⟨%d2, H2⟩⟩
      rw [before_0 m c t d0, before_1 m c t d1]
      iapply (run_first c (grid0.coords t) _ _ _ _ _ _ _ _ ((hcondZ t).mpr h0) (fun h => h39 ((hcond2 t).mp h)) _ _ _ _ Set.univ _)
      isplitl [H0]; · iexact H0
      isplitl [H1]; · iexact H1
      isplitl [H2]; · iexact H2
      isplitl [HS]; · iexact HS
      iintro ⟨H0, H1, H2, HS⟩
      rw [pay2_fill t d0 (fun _ => Scalar.ofBits .f32 0#32) d1 (fun _ => Scalar.ofBits .f32 0#32) (blk0 m c t) (blk1 m c t)]
      isplitl [HS Hg]
      · isplitl [HS]; · iexact HS
        iexact Hg
      isplitl [Ho]; · iexact Ho
      isplitl [H0]; · iexists d0; iexact H0
      isplitl [H1]; · iexists d1; iexact H1
      iexists d2; iexact H2
  · have hz : t.val ≠ 0 := fun h => h0 (by rw [h])
    by_cases h39 : t.val % 40 = 39
    · rw [leaves2_live m c t h39]
      rw [acc_next m c t h0]
      unfold Z0 Z1
      rw [PhiS_castSucc m c t, PhiS_pos m c _ _ hz]
      iintro ⟨⟨HS, Hg⟩, Ho, ⟨%d0, H0⟩, ⟨%d1, H1⟩, ⟨%d2, H2⟩⟩
      rw [before_0 m c t d0, before_1 m c t d1]
      iapply (run_last c (grid0.coords t) _ _ _ _ _ _ _ _ (fun h => h0 ((hcondZ t).mp h)) ((hcond2 t).mpr h39) _ _ _ _ Set.univ _)
      isplitl [H0]; · iexact H0
      isplitl [H1]; · iexact H1
      isplitl [H2]; · iexact H2
      isplitl [HS]; · iexact HS
      iintro ⟨H0, H1, H2, HS⟩
      rw [pay2_fill t d0 (fun _ => Scalar.ofBits .f32 0#32) d1 (fun _ => Scalar.ofBits .f32 0#32) (blk0 m c t) (blk1 m c t)]
      isplitl [HS Hg]
      · isplitl [HS]; · iexact HS
        iexact Hg
      isplitl [Ho]; · iexact Ho
      isplitl [H0]; · iexists d0; iexact H0
      isplitl [H1]; · iexists d1; iexact H1
      iexact H2
    · rw [Dat.leaves_idle (dats m 0 c) 2 t ((idle2_iff t).mpr h39) (noflush2 t h39)]
      rw [acc_next m c t h0]
      unfold Z0 Z1
      rw [PhiS_castSucc m c t, PhiS_pos m c _ _ hz]
      iintro ⟨⟨HS, Hg⟩, Ho, ⟨%d0, H0⟩, ⟨%d1, H1⟩, ⟨%d2, H2⟩⟩
      rw [before_0 m c t d0, before_1 m c t d1]
      iapply (run_mid c (grid0.coords t) _ _ _ _ _ _ _ _ (fun h => h0 ((hcondZ t).mp h)) (fun h => h39 ((hcond2 t).mp h)) _ _ _ _ Set.univ _)
      isplitl [H0]; · iexact H0
      isplitl [H1]; · iexact H1
      isplitl [H2]; · iexact H2
      isplitl [HS]; · iexact HS
      iintro ⟨H0, H1, H2, HS⟩
      rw [pay2_fill t d0 (fun _ => Scalar.ofBits .f32 0#32) d1 (fun _ => Scalar.ofBits .f32 0#32) (blk0 m c t) (blk1 m c t)]
      isplitl [HS Hg]
      · isplitl [HS]; · iexact HS
        iexact Hg
      isplitl [Ho]; · iexact Ho
      isplitl [H0]; · iexists d0; iexact H0
      isplitl [H1]; · iexists d1; iexact H1
      iexists d2; iexact H2

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 80 := N_0; omega), PhiA0_eq]
  iintro ⟨HS0, Hg⟩
  isplitl [HS0]
  · iexists _; iexact HS0
  iexact Hg

/-! ## The run and the frame -/

set_option backward.isDefEq.respectTransparency.types false in
/-- For any values, from any memory with zero counters: every weakly fair execution of @main terminates, and every
    final state has every array of the pipeline at what the library computes from the proof data and every other
    unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.RunIdeal.lean ====
import proofs.«119572_j19473381720640_2_alg».proof.Proof.Gen.KernelIdeal.Frame
import proofs.«119572_j19473381720640_2_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! The kernel body at one grid point, on any whole staging memrefs, in the three situations the grid meets.

At a point the body (1) if the point is the first of its half's sweep, stores the zero word into the 1×1
accumulator; (2) loads the two 512×2560 blocks, forms the masked sum of `log a · b` over the block and adds it to
the accumulator; (3) if the point is the last of its half's sweep, stores `0 − accumulator` into the 1×1×1
output block. Each triple says: the two input buffers are left as found, the accumulator ends at the
payload of step (2) over what it held (or over the zero word at a first point), and at a last point the output
buffer ends at the negated accumulator (otherwise it is left as found). -/

/-- The first conditional of the body, from the grid coordinates: the point is the first of its half's sweep
    (second and third coordinates zero). -/
abbrev condZ (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

theorem zero2 : (![0, 0] : Fin 2 → Nat) = fun _ => 0 := funext fun a => by fin_cases a <;> rfl
theorem zero3 : (![0, 0, 0] : Fin 3 → Nat) = fun _ => 0 := funext fun a => by fin_cases a <;> rfl

/-- A buffer whose last store went through its whole rectangle reads back as that store's payload, whatever
    it held and whatever was stored before. -/
theorem read_store_whole_cons {Val : EltTy → Type} [∀ e, Nonempty (Val e)] {sg : RefSig} {κ : Kind} {sp : Space} {S : Shape} {e : EltTy}
    (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hz inb y⟩), View.canon_cons_unit_zero hz]

theorem read_store_whole {Val : EltTy → Type} [∀ e, Nonempty (Val e)] {sg : RefSig} {κ : Kind} {sp : Space} {S : Shape} {e : EltTy}
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w :=
  read_store_whole_cons v f hz inb w []

/-- A middle point: neither conditional taken. -/
theorem run_mid (c : Dev nD) (i : grid0.Coords)
    (arg3 : Memref sig .tc .vmem S512x2560 .f32) (harg3 : arg3.IsWhole) (arg4 : Memref sig .tc .vmem S512x2560 .f32) (harg4 : arg4.IsWhole)
    (arg5 : Memref sig .tc .vmem S1x1x1 .f32) (harg5 : arg5.IsWhole) (arg6 : Memref sig .tc .vmem S1x1 .f32) (harg6 : arg6.IsWhole)
    (hc1 : ¬condZ i) (hc2 : ¬(k0_cond2 i = 1#1))
    (x0 x1 : Vec F S512x2560 .f32) (x2 : Vec F S1x1x1 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay2 i x0 x1 xs)) -∗ K ⟨⟩))
      ⊢ wp frame (wpE (defs₀ (F := F)) Variants.none c none) E (cc0__loss_kernel i arg3 harg3 arg4 harg4 arg5 harg5 arg6 harg6) K := by
  simp only [cc0__loss_kernel_eq_skeleton]; unfold cc0__loss_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [read_store_whole _ _ zero2]
  simp only [View.readAt_eq_ld, harg3.read_unread, harg4.read_unread, harg6.read_unread, View.ld_unit_zero (S := S512x2560) zero2, View.ld_unit_zero (S := S1x1) zero2]

/-- A first point of a half's sweep: the accumulator is zeroed, then takes the block's sum; the output buffer is untouched. -/
theorem run_first (c : Dev nD) (i : grid0.Coords)
    (arg3 : Memref sig .tc .vmem S512x2560 .f32) (harg3 : arg3.IsWhole) (arg4 : Memref sig .tc .vmem S512x2560 .f32) (harg4 : arg4.IsWhole)
    (arg5 : Memref sig .tc .vmem S1x1x1 .f32) (harg5 : arg5.IsWhole) (arg6 : Memref sig .tc .vmem S1x1 .f32) (harg6 : arg6.IsWhole)
    (hc1 : condZ i) (hc2 : ¬(k0_cond2 i = 1#1))
    (x0 x1 : Vec F S512x2560 .f32) (x2 : Vec F S1x1x1 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay2 i x0 x1 (k0_pay1 (F := F)))) -∗ K ⟨⟩))
      ⊢ wp frame (wpE (defs₀ (F := F)) Variants.none c none) E (cc0__loss_kernel i arg3 harg3 arg4 harg4 arg5 harg5 arg6 harg6) K := by
  simp only [cc0__loss_kernel_eq_skeleton]; unfold cc0__loss_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  rw [read_store_whole_cons _ _ zero2]
  simp only [View.readAt_eq_ld, harg3.read_unread, harg4.read_unread, harg6.read_unread, View.ld_unit_zero (S := S512x2560) zero2, View.ld_unit_zero (S := S1x1) zero2,
    View.readCov_unit_zero (S := S1x1) _ zero2]

/-- A last point of a half's sweep: the accumulator takes the block's sum, and the output buffer ends at zero minus it. -/
theorem run_last (c : Dev nD) (i : grid0.Coords)
    (arg3 : Memref sig .tc .vmem S512x2560 .f32) (harg3 : arg3.IsWhole) (arg4 : Memref sig .tc .vmem S512x2560 .f32) (harg4 : arg4.IsWhole)
    (arg5 : Memref sig .tc .vmem S1x1x1 .f32) (harg5 : arg5.IsWhole) (arg6 : Memref sig .tc .vmem S1x1 .f32) (harg6 : arg6.IsWhole)
    (hc1 : ¬condZ i) (hc2 : k0_cond2 i = 1#1)
    (x0 x1 : Vec F S512x2560 .f32) (x2 : Vec F S1x1x1 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xs
        ∗ (iprop(owns (c : Thread nD τ) arg3 fullShare x0 ∗ owns (c : Thread nD τ) arg4 fullShare x1
            ∗ owns (c : Thread nD τ) arg5 fullShare (k0_pay3 (k0_pay2 i x0 x1 xs))
            ∗ owns (c : Thread nD τ) arg6 fullShare (k0_pay2 i x0 x1 xs)) -∗ K ⟨⟩))
      ⊢ wp frame (wpE (defs₀ (F := F)) Variants.none c none) E (cc0__loss_kernel i arg3 harg3 arg4 harg4 arg5 harg5 arg6 harg6) K := by
  simp only [cc0__loss_kernel_eq_skeleton]; unfold cc0__loss_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  sl_unfold_run_names
  isplitl [H2]
  · iexists _; isplitr
    swap; · iexact H2
    ipureintro
    rw [read_store_whole _ _ zero3]
    simp only [View.readAt_eq_ld, harg3.read_unread, harg4.read_unread, harg6.read_unread, View.ld_unit_zero (S := S512x2560) zero2, View.ld_unit_zero (S := S1x1) zero2,
      View.readCov_unit_zero (S := S1x1) _ zero2]
  iexists _; isplitr
  swap; · iexact HS
  ipureintro
  rw [read_store_whole _ _ zero2]
  simp only [View.readAt_eq_ld, harg3.read_unread, harg4.read_unread, harg6.read_unread, View.ld_unit_zero (S := S512x2560) zero2, View.ld_unit_zero (S := S1x1) zero2]

end Cert.KernelIdeal.Hand

end
-- ==== Proof.MaskIdeal.lean ====
import proofs.«119572_j19473381720640_2_alg».proof.Proof.Gen.KernelIdeal.Skeleton
import proofs.«119572_j19473381720640_2_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Window)

variable {F : FTy → Type} [FloatOps F]

/-! The last column band of the array is ragged: the band of 2560 columns that starts at column 48640 has
only 1617 columns inside the array, and the staged block's remaining 943 columns hold words nothing names. The
body keeps a lane only when its global column `j · 2560 + col` is below 50257, so what it adds to the
accumulator does not depend on those words. -/

/-- The lanes the body keeps at a grid point: the global column is inside the array. -/
def mask (i : grid0.Coords) : IVec S512x2560 1 :=
  cmpi .slt (addi (broadcast S512x2560 (Scalar.muli (BitVec.ofNat 32 (i 2).val) 2560#32)) (iota .tc S512x2560 32 [1] iota_S512x2560_d1_w32))
    (broadcast S512x2560 50257#32)

/-- Two pairs of blocks that agree on the kept lanes add the same amount to the accumulator. -/
theorem pay2_congr (i : grid0.Coords) (a a' b b' : Vec F S512x2560 .f32) (v : Vec F S1x1 .f32)
    (h : ∀ y, mask i y = 1#1 → a y = a' y ∧ b y = b' y) : k0_pay2 i a b v = k0_pay2 i a' b' v := by
  have e : select (mask i) (mulf (log a) b) (broadcast S512x2560 (Scalar.ofBits .f32 0x00000000#32))
      = select (mask i) (mulf (log a') b') (broadcast S512x2560 (Scalar.ofBits .f32 0x00000000#32)) := by
    funext y
    by_cases hm : mask i y = 1#1
    · obtain ⟨ha, hb⟩ := h y hm
      simp only [select, mulf, log, ha, hb]
    · have hm' : ¬(mask i y = 1) := hm
      simp only [select, Scalar.select, if_neg hm']
  unfold mask at e
  unfold k0_pay2
  dsimp only
  rw [e]

/-- The comparison the body makes, on numbers: for a column band `j < 20` and a lane `col < 2560` the 32-bit
    signed test `j · 2560 + col < 50257` is the test on the naturals (nothing wraps). -/
theorem lane_lt (j col : ℕ) (hj : j < 20) (hcol : col < 2560)
    (h : IntOp.cmpi .slt (IntOp.addi (Scalar.muli (BitVec.ofNat 32 j) 2560#32) (BitVec.ofNat 32 col)) 50257#32 = 1#1) :
    j * 2560 + col < 50257 := by
  have hx : (BitVec.ofNat 32 j * 2560#32 + BitVec.ofNat 32 col).toNat = j * 2560 + col := by
    simp only [BitVec.toNat_add, BitVec.toNat_mul, BitVec.toNat_ofNat]
    omega
  have hs : (BitVec.ofNat 32 j * 2560#32 + BitVec.ofNat 32 col).slt 50257#32 = true := by
    simp only [IntOp.cmpi, IntOp.addi, Scalar.muli, IntOp.muli] at h
    rcases hb : (BitVec.ofNat 32 j * 2560#32 + BitVec.ofNat 32 col).slt 50257#32 with _ | _
    · rw [hb] at h; exact absurd h (by decide)
    · rfl
  rw [BitVec.slt, decide_eq_true_eq, BitVec.toInt_eq_toNat_cond, BitVec.toInt_eq_toNat_cond, hx] at hs
  simp only [BitVec.toNat_ofNat] at hs
  omega

end Cert.KernelIdeal.Hand

end
-- ==== Proof.GridIdeal.lean ====
import proofs.«119572_j19473381720640_2_alg».proof.Proof.RunIdeal
import proofs.«119572_j19473381720640_2_alg».proof.Proof.MaskIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid, decided

The grid has 80 points `t = c · 40 + i · 20 + j` (half `c`, row band `i`, column band `j`). A half's sweep starts at
`t ≡ 0` and ends at `t ≡ 39 (mod 40)`; only there is the output block stored and written back. -/

theorem hcondZ : ∀ t : Fin cfg0.N, condZ (grid0.coords t) ↔ t.val % 40 = 0 :=
  (by decide +kernel : ∀ t : Fin grid0.N, condZ (grid0.coords t) ↔ t.val % 40 = 0)
theorem hcond2 : ∀ t : Fin cfg0.N, k0_cond2 (grid0.coords t) = 1#1 ↔ t.val % 40 = 39 :=
  (by decide +kernel : ∀ t : Fin grid0.N, k0_cond2 (grid0.coords t) = 1#1 ↔ t.val % 40 = 39)
theorem idle2_iff : ∀ t : Fin cfg0.N, cfg0.idle 2 (grid0.coords t) = true ↔ t.val % 40 ≠ 39 :=
  (by decide +kernel : ∀ t : Fin grid0.N, idle0 2 (grid0.coords t) = true ↔ t.val % 40 ≠ 39)
theorem live2 (t : Fin cfg0.N) (h : t.val % 40 = 39) : cfg0.idle 2 (grid0.coords t) = false := by
  cases hi : cfg0.idle 2 (grid0.coords t)
  · rfl
  · exact absurd h ((idle2_iff t).mp hi)
theorem noflush2 (t : Fin cfg0.N) (h : ¬t.val % 40 = 39) : (cfg0.win 2).flush t = false := by
  cases hf : (cfg0.win 2).flush t
  · rfl
  · exact absurd ((flush0_2 t).mp hf) h
theorem coord2 : ∀ t : Fin cfg0.N, ((grid0.coords t) 2).val = t.val % 20 :=
  (by decide +kernel : ∀ t : Fin grid0.N, ((grid0.coords t) 2).val = t.val % 20)
/-- How much of a block a transfer moves: all 512 rows, and the columns of the band that lie inside the array. -/
theorem xsize0 : ∀ t : Fin cfg0.N, win0_0.xsize (grid0.coords t) 0 = 512 ∧ win0_0.xsize (grid0.coords t) 1 = min 2560 (50257 - t.val % 20 * 2560) :=
  (by decide +kernel : ∀ t : Fin grid0.N, win0_0.xsize (grid0.coords t) 0 = 512 ∧ win0_0.xsize (grid0.coords t) 1 = min 2560 (50257 - t.val % 20 * 2560))
theorem xsize1 : ∀ t : Fin cfg0.N, win0_1.xsize (grid0.coords t) 0 = 512 ∧ win0_1.xsize (grid0.coords t) 1 = min 2560 (50257 - t.val % 20 * 2560) :=
  (by decide +kernel : ∀ t : Fin grid0.N, win0_1.xsize (grid0.coords t) 0 = 512 ∧ win0_1.xsize (grid0.coords t) 1 = min 2560 (50257 - t.val % 20 * 2560))

/-- A kept lane's global column is inside the array. -/
theorem kept_lt (t : Fin cfg0.N) (y : S512x2560.Idx) (h : mask (grid0.coords t) y = 1#1) : t.val % 20 * 2560 + (y 1).val < 50257 := by
  refine lane_lt (t.val % 20) (y 1).val (Nat.mod_lt _ (by omega)) (y 1).isLt ?_
  have h' := h
  simp only [mask, cmpi, addi, broadcast, iota, List.foldl, Nat.zero_mul, Nat.zero_add, coord2 t] at h'
  exact h'

/-- So a kept lane lies in the part of the block the fetch filled from the array. -/
theorem moved0 (t : Fin cfg0.N) (y : S512x2560.Idx) (h : mask (grid0.coords t) y = 1#1) : win0_0.moved (grid0.coords t) y = true := by
  rw [Window.moved_iff]
  obtain ⟨e0, e1⟩ := xsize0 t
  have hlt := kept_lt t y h
  have h0 : (y 0).val < 512 := (y 0).isLt
  have h1 : (y 1).val < 2560 := (y 1).isLt
  intro a
  match a with
  | ⟨0, _⟩ => show (y 0).val < win0_0.xsize (grid0.coords t) 0; rw [e0]; exact h0
  | ⟨1, _⟩ => show (y 1).val < win0_0.xsize (grid0.coords t) 1; rw [e1]; omega
theorem moved1 (t : Fin cfg0.N) (y : S512x2560.Idx) (h : mask (grid0.coords t) y = 1#1) : win0_1.moved (grid0.coords t) y = true := by
  rw [Window.moved_iff]
  obtain ⟨e0, e1⟩ := xsize1 t
  have hlt := kept_lt t y h
  have h0 : (y 0).val < 512 := (y 0).isLt
  have h1 : (y 1).val < 2560 := (y 1).isLt
  intro a
  match a with
  | ⟨0, _⟩ => show (y 0).val < win0_1.xsize (grid0.coords t) 0; rw [e0]; exact h0
  | ⟨1, _⟩ => show (y 1).val < win0_1.xsize (grid0.coords t) 1; rw [e1]; omega

theorem fill_agree {G : Pipeline.Grid} (w : Window sig G) {α : Type} (i : G.Coords) (d d' : w.block.Idx → α) (g : (w.xblock i).Idx → α)
    (y : w.block.Idx) (h : w.moved i y = true) : w.fill i d g y = w.fill i d' g y := by
  unfold Window.fill; rw [dif_pos h, dif_pos h]

/-- What a point adds to the accumulator does not depend on the words past the array's edge in the two staged blocks. -/
theorem pay2_fill (t : Fin cfg0.N) (d0 d0' d1 d1' : S512x2560.Idx → Elt F .f32)
    (g0 : (win0_0.xblock (grid0.coords t)).Idx → Elt F .f32) (g1 : (win0_1.xblock (grid0.coords t)).Idx → Elt F .f32) (v : Vec F S1x1 .f32) :
    k0_pay2 (grid0.coords t) (win0_0.fill (grid0.coords t) d0 g0) (win0_1.fill (grid0.coords t) d1 g1) v
      = k0_pay2 (grid0.coords t) (win0_0.fill (grid0.coords t) d0' g0) (win0_1.fill (grid0.coords t) d1' g1) v :=
  pay2_congr _ _ _ _ _ _ fun y hm => ⟨fill_agree win0_0 _ d0 d0' g0 y (moved0 t y hm), fill_agree win0_1 _ d1 d1' g1 y (moved1 t y hm)⟩

end Cert.KernelIdeal.Hand

end
-- ==== Proof.DataIdeal.lean ====
import proofs.«119572_j19473381720640_2_alg».proof.Proof.GridIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the accumulator -/

/-- The two arguments' blocks at point `t` as the fetch reads them: the block's part inside the array. -/
def blk0 (c : Dev nD) (t : Fin cfg0.N) : (win0_0.xblock (grid0.coords t)).Idx → Elt F .f32 :=
  (win0_0.blk t).view.read (Elt F) (V m c main_arg0)
def blk1 (c : Dev nD) (t : Fin cfg0.N) : (win0_1.xblock (grid0.coords t)).Idx → Elt F .f32 :=
  (win0_1.blk t).view.read (Elt F) (V m c main_arg1)

/-- The staged 512×2560 blocks with the columns past the array's edge filled by the zero word (a filler the proof
    picks; nothing the body keeps depends on it). -/
def Z0 (c : Dev nD) (t : Fin cfg0.N) : S512x2560.Idx → Elt F .f32 :=
  win0_0.fill (grid0.coords t) (fun _ => Scalar.ofBits .f32 0#32) (blk0 m c t)
def Z1 (c : Dev nD) (t : Fin cfg0.N) : S512x2560.Idx → Elt F .f32 :=
  win0_1.fill (grid0.coords t) (fun _ => Scalar.ofBits .f32 0#32) (blk1 m c t)

/-- THE ACCUMULATION: what the 1×1 accumulator holds after the body at position `n`: the point's masked block sum added
    to what the point before left — to the zero word at the first point of a half's sweep. -/
def acc (c : Dev nD) : (n : ℕ) → n < cfg0.N → Vec F S1x1 .f32
  | 0, h => k0_pay2 (grid0.coords ⟨0, h⟩) (Z0 m c ⟨0, h⟩) (Z1 m c ⟨0, h⟩) (k0_pay1 (F := F))
  | n + 1, h => k0_pay2 (grid0.coords ⟨n + 1, h⟩) (Z0 m c ⟨n + 1, h⟩) (Z1 m c ⟨n + 1, h⟩)
      (if (n + 1) % 40 = 0 then k0_pay1 (F := F) else acc c n (Nat.lt_of_succ_lt h))

theorem acc_first (c : Dev nD) (t : Fin cfg0.N) (h0 : t.val % 40 = 0) :
    acc m c t.val t.isLt = k0_pay2 (grid0.coords t) (Z0 m c t) (Z1 m c t) (k0_pay1 (F := F)) := by
  obtain ⟨n, hn⟩ := t
  cases n with
  | zero => rfl
  | succ n => simp only [acc]; rw [if_pos h0]

theorem acc_next (c : Dev nD) (t : Fin cfg0.N) (h0 : ¬t.val % 40 = 0) :
    acc m c t.val t.isLt = k0_pay2 (grid0.coords t) (Z0 m c t) (Z1 m c t)
      (acc m c (t.val - 1) (Nat.lt_of_le_of_lt (Nat.sub_le _ _) t.isLt)) := by
  obtain ⟨n, hn⟩ := t
  cases n with
  | zero => exact absurd (Nat.zero_mod 40) h0
  | succ n => simp only [acc]; rw [if_neg h0]; rfl

/-! ## The invariant and the proof data -/

/-- The kernel's one scratch operand: the 1×1 accumulator, a whole scoped buffer. -/
abbrev scM : Memref sig .tc .vmem S1x1 .f32 := Memref.whole cc0_scratch0

theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Before the first point the accumulator holds anything; after point `n` it holds `acc n`. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (acc m c n hn)) ∗ (∃ r, prngReg c r)) := rfl
theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-- The proof data of the one pipeline on core `c`: the arrays as the region finds them; after the body at point `t` the
    two inputs' buffers at their blocks (zero-filled past the edge), the output's at zero minus the accumulator; the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => Z0 m c t
    | ⟨1, _⟩ => Z1 m c t
    | ⟨2, _⟩ => k0_pay3 (acc m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = Z0 m c t := by dsimp only [dats]
theorem after0_1 (c : Dev nD) (t : Fin cfg0.N) : (dats m 0 c).after 1 t = Z1 m c t := by dsimp only [dats]
theorem after0_2 (c : Dev nD) (t : Fin cfg0.N) : (dats m 0 c).after 2 t = k0_pay3 (acc m c t.val t.isLt) := by dsimp only [dats]

/-- What the body finds in the inputs' buffers: the block just fetched, `d` past the array's edge. -/
theorem before_0 (c : Dev nD) (t : Fin cfg0.N) (d) :
    (dats m 0 c).before 0 t d = win0_0.fill (grid0.coords t) d (blk0 m c t) := by
  unfold Dat.before; rw [if_pos (fetch0_0 t)]; rfl
theorem before_1 (c : Dev nD) (t : Fin cfg0.N) (d) :
    (dats m 0 c).before 1 t d = win0_1.fill (grid0.coords t) d (blk1 m c t) := by
  unfold Dat.before; rw [if_pos (fetch0_1 t)]; rfl

/-- What the obligation asks of the inputs' buffers afterwards: the block on the part inside the array. -/
theorem leaves0 (c : Dev nD) (t : Fin cfg0.N) :
    (dats m 0 c).leaves 0 t = iprop(∃ d, owns (c : Thread nD τ) (st0_0 t) fullShare (win0_0.fill (grid0.coords t) d (blk0 m c t))) := by
  have e : win0_0.cut (grid0.coords t) ((dats m 0 c).after 0 t) = blk0 m c t := by
    rw [after0_0]; exact win0_0.cut_fill _ _ _
  rw [← e]
theorem leaves1 (c : Dev nD) (t : Fin cfg0.N) :
    (dats m 0 c).leaves 1 t = iprop(∃ d, owns (c : Thread nD τ) (st0_1 t) fullShare (win0_1.fill (grid0.coords t) d (blk1 m c t))) := by
  have e : win0_1.cut (grid0.coords t) ((dats m 0 c).after 1 t) = blk1 m c t := by
    rw [after0_1]; exact win0_1.cut_fill _ _ _
  rw [← e]
/-- and of the output's at a last point of a half: zero minus the accumulator. -/
theorem leaves2_live (c : Dev nD) (t : Fin cfg0.N) (h : t.val % 40 = 39) :
    (dats m 0 c).leaves 2 t = owns (c : Thread nD τ) (st0_2 t) fullShare (k0_pay3 (acc m c t.val t.isLt)) := by
  unfold Dat.leaves; rw [live2 t h, after0_2]

end Cert.KernelIdeal.Hand

end
-- ==== Proof.FrameIdeal.lean ====
import proofs.«119572_j19473381720640_2_alg».proof.Proof.DataIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, what the core owes, and the three windows' current
    staging buffers at what they then hold. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

set_option maxHeartbeats 3200000 in
/-- The body at any point. The two inputs' buffers hold their blocks with some words `d` past the array's edge; the
    point is a first, a middle or a last point of its half's sweep; the matching triple applies; the accumulator
    comes back at `acc t` because the payload does not see the words `d`; the inputs' buffers come back as found,
    and the output's buffer as found, or at zero minus the accumulator at a last point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t]
  have hN : t.val < 80 := lt_of_lt_of_eq t.isLt (show cfg0.N = 80 from N_0)
  by_cases h0 : t.val % 40 = 0
  · have h39 : ¬t.val % 40 = 39 := by omega
    rw [Dat.leaves_idle (dats m 0 c) 2 t ((idle2_iff t).mpr h39) (noflush2 t h39)]
    rw [acc_first m c t h0]
    unfold Z0 Z1
    by_cases hz : t.val = 0
    · rw [PhiS_castSucc m c t, PhiS_zero m c _ _ hz, PhiA0_eq]
      iintro ⟨⟨⟨%xs, HS⟩, Hg⟩, Ho, ⟨%d0, H0⟩, ⟨%d1, H1⟩, ⟨%d2, H2⟩⟩
      rw [before_0 m c t d0, before_1 m c t d1]
      iapply (run_first c (grid0.coords t) _ _ _ _ _ _ _ _ ((hcondZ t).mpr h0) (fun h => h39 ((hcond2 t).mp h)) _ _ _ _ Set.univ _)
      isplitl [H0]; · iexact H0
      isplitl [H1]; · iexact H1
      isplitl [H2]; · iexact H2
      isplitl [HS]; · iexact HS
      iintro ⟨H0, H1, H2, HS⟩
      rw [pay2_fill t d0 (fun _ => Scalar.ofBits .f32 0#32) d1 (fun _ => Scalar.ofBits .f32 0#32) (blk0 m c t) (blk1 m c t)]
      isplitl [HS Hg]
      · isplitl [HS]; · iexact HS
        iexact Hg
      isplitl [Ho]; · iexact Ho
      isplitl [H0]; · iexists d0; iexact H0
      isplitl [H1]; · iexists d1; iexact H1
      iexists d2; iexact H2
    · rw [PhiS_castSucc m c t, PhiS_pos m c _ _ hz]
      iintro ⟨⟨HS, Hg⟩, Ho, ⟨%d0, H0⟩, ⟨%d1, H1⟩, ⟨%d2, H2⟩⟩
      rw [before_0 m c t d0, before_1 m c t d1]
      iapply (run_first c (grid0.coords t) _ _ _ _ _ _ _ _ ((hcondZ t).mpr h0) (fun h => h39 ((hcond2 t).mp h)) _ _ _ _ Set.univ _)
      isplitl [H0]; · iexact H0
      isplitl [H1]; · iexact H1
      isplitl [H2]; · iexact H2
      isplitl [HS]; · iexact HS
      iintro ⟨H0, H1, H2, HS⟩
      rw [pay2_fill t d0 (fun _ => Scalar.ofBits .f32 0#32) d1 (fun _ => Scalar.ofBits .f32 0#32) (blk0 m c t) (blk1 m c t)]
      isplitl [HS Hg]
      · isplitl [HS]; · iexact HS
        iexact Hg
      isplitl [Ho]; · iexact Ho
      isplitl [H0]; · iexists d0; iexact H0
      isplitl [H1]; · iexists d1; iexact H1
      iexists d2; iexact H2
  · have hz : t.val ≠ 0 := fun h => h0 (by rw [h])
    by_cases h39 : t.val % 40 = 39
    · rw [leaves2_live m c t h39]
      rw [acc_next m c t h0]
      unfold Z0 Z1
      rw [PhiS_castSucc m c t, PhiS_pos m c _ _ hz]
      iintro ⟨⟨HS, Hg⟩, Ho, ⟨%d0, H0⟩, ⟨%d1, H1⟩, ⟨%d2, H2⟩⟩
      rw [before_0 m c t d0, before_1 m c t d1]
      iapply (run_last c (grid0.coords t) _ _ _ _ _ _ _ _ (fun h => h0 ((hcondZ t).mp h)) ((hcond2 t).mpr h39) _ _ _ _ Set.univ _)
      isplitl [H0]; · iexact H0
      isplitl [H1]; · iexact H1
      isplitl [H2]; · iexact H2
      isplitl [HS]; · iexact HS
      iintro ⟨H0, H1, H2, HS⟩
      rw [pay2_fill t d0 (fun _ => Scalar.ofBits .f32 0#32) d1 (fun _ => Scalar.ofBits .f32 0#32) (blk0 m c t) (blk1 m c t)]
      isplitl [HS Hg]
      · isplitl [HS]; · iexact HS
        iexact Hg
      isplitl [Ho]; · iexact Ho
      isplitl [H0]; · iexists d0; iexact H0
      isplitl [H1]; · iexists d1; iexact H1
      iexact H2
    · rw [Dat.leaves_idle (dats m 0 c) 2 t ((idle2_iff t).mpr h39) (noflush2 t h39)]
      rw [acc_next m c t h0]
      unfold Z0 Z1
      rw [PhiS_castSucc m c t, PhiS_pos m c _ _ hz]
      iintro ⟨⟨HS, Hg⟩, Ho, ⟨%d0, H0⟩, ⟨%d1, H1⟩, ⟨%d2, H2⟩⟩
      rw [before_0 m c t d0, before_1 m c t d1]
      iapply (run_mid c (grid0.coords t) _ _ _ _ _ _ _ _ (fun h => h0 ((hcondZ t).mp h)) (fun h => h39 ((hcond2 t).mp h)) _ _ _ _ Set.univ _)
      isplitl [H0]; · iexact H0
      isplitl [H1]; · iexact H1
      isplitl [H2]; · iexact H2
      isplitl [HS]; · iexact HS
      iintro ⟨H0, H1, H2, HS⟩
      rw [pay2_fill t d0 (fun _ => Scalar.ofBits .f32 0#32) d1 (fun _ => Scalar.ofBits .f32 0#32) (blk0 m c t) (blk1 m c t)]
      isplitl [HS Hg]
      · isplitl [HS]; · iexact HS
        iexact Hg
      isplitl [Ho]; · iexact Ho
      isplitl [H0]; · iexists d0; iexact H0
      isplitl [H1]; · iexists d1; iexact H1
      iexists d2; iexact H2

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 80 := N_0; omega), PhiA0_eq]
  iintro ⟨HS0, Hg⟩
  isplitl [HS0]
  · iexists _; iexact HS0
  iexact Hg

/-! ## The run and the frame -/

set_option backward.isDefEq.respectTransparency.types false in
/-- For any values, from any memory with zero counters: every weakly fair execution of @main terminates, and every
    final state has every array of the pipeline at what the library computes from the proof data and every other
    unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.ValueIdeal.lean ====
import proofs.«119572_j19473381720640_2_alg».proof.Proof.DataIdeal
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## A tile's lanes, as entries of the two arrays

Point `t` stages rows `(t / 20) · 512 + r` and columns `(t % 20) · 2560 + col` of both arrays; the body keeps the lane
`(r, col)` exactly when that column is below 50257. -/

/-- The body's 32-bit signed lane test is the test on the naturals. -/
theorem lane_iff (j col : ℕ) (hj : j < 20) (hcol : col < 2560) :
    IntOp.cmpi .slt (IntOp.addi (Scalar.muli (BitVec.ofNat 32 j) 2560#32) (BitVec.ofNat 32 col)) 50257#32 = 1#1 ↔ j * 2560 + col < 50257 := by
  have hx : (BitVec.ofNat 32 j * 2560#32 + BitVec.ofNat 32 col).toNat = j * 2560 + col := by
    simp only [BitVec.toNat_add, BitVec.toNat_mul, BitVec.toNat_ofNat]
    omega
  have hs : (BitVec.ofNat 32 j * 2560#32 + BitVec.ofNat 32 col).slt 50257#32 = true ↔ j * 2560 + col < 50257 := by
    rw [BitVec.slt, decide_eq_true_eq, BitVec.toInt_eq_toNat_cond, BitVec.toInt_eq_toNat_cond, hx]
    simp only [BitVec.toNat_ofNat]
    omega
  simp only [IntOp.cmpi, IntOp.addi, Scalar.muli, IntOp.muli]
  rw [← hs]
  cases (BitVec.ofNat 32 j * 2560#32 + BitVec.ofNat 32 col).slt 50257#32 <;> decide

theorem mask_iff (t : Fin cfg0.N) (r : Fin 512) (col : Fin 2560) :
    mask (grid0.coords t) (ix2 r col) = 1#1 ↔ t.val % 20 * 2560 + col.val < 50257 := by
  rw [← lane_iff (t.val % 20) col.val (Nat.mod_lt _ (by omega)) col.isLt]
  simp only [mask, cmpi, addi, broadcast, iota, List.foldl, Nat.zero_mul, Nat.zero_add, coord2 t]

/-- The block index of the two input windows at a point: row band `t / 20`, column band `t % 20`. -/
theorem index0 : ∀ t : Fin cfg0.N, win0_0.index t (0 : Fin 2) = t.val / 20 ∧ win0_0.index t (1 : Fin 2) = t.val % 20 :=
  (by decide +kernel : ∀ t : Fin grid0.N, win0_0.index t (0 : Fin 2) = t.val / 20 ∧ win0_0.index t (1 : Fin 2) = t.val % 20)
theorem index1 : ∀ t : Fin cfg0.N, win0_1.index t (0 : Fin 2) = t.val / 20 ∧ win0_1.index t (1 : Fin 2) = t.val % 20 :=
  (by decide +kernel : ∀ t : Fin grid0.N, win0_1.index t (0 : Fin 2) = t.val / 20 ∧ win0_1.index t (1 : Fin 2) = t.val % 20)

theorem moved0_of (t : Fin cfg0.N) (y : S512x2560.Idx) (h : t.val % 20 * 2560 + (y 1).val < 50257) : win0_0.moved (grid0.coords t) y = true := by
  rw [Window.moved_iff]
  obtain ⟨e0, e1⟩ := xsize0 t
  have h0 : (y 0).val < 512 := (y 0).isLt
  have h1 : (y 1).val < 2560 := (y 1).isLt
  intro a
  match a with
  | ⟨0, _⟩ => show (y 0).val < win0_0.xsize (grid0.coords t) 0; rw [e0]; exact h0
  | ⟨1, _⟩ => show (y 1).val < win0_0.xsize (grid0.coords t) 1; rw [e1]; omega
theorem moved1_of (t : Fin cfg0.N) (y : S512x2560.Idx) (h : t.val % 20 * 2560 + (y 1).val < 50257) : win0_1.moved (grid0.coords t) y = true := by
  rw [Window.moved_iff]
  obtain ⟨e0, e1⟩ := xsize1 t
  have h0 : (y 0).val < 512 := (y 0).isLt
  have h1 : (y 1).val < 2560 := (y 1).isLt
  intro a
  match a with
  | ⟨0, _⟩ => show (y 0).val < win0_1.xsize (grid0.coords t) 0; rw [e0]; exact h0
  | ⟨1, _⟩ => show (y 1).val < win0_1.xsize (grid0.coords t) 1; rw [e1]; omega

theorem row_lt (t : Fin cfg0.N) (r : Fin 512) : t.val / 20 * 512 + r.val < 2048 := by
  have hN : t.val < 80 := lt_of_lt_of_eq t.isLt (show cfg0.N = 80 from N_0)
  have := r.isLt
  omega

/-- A kept lane of the first staged block is the first array's entry at the tile's row and column. -/
theorem Z0_kept (c : Dev nD) (t : Fin cfg0.N) (r : Fin 512) (col : Fin 2560) (h : t.val % 20 * 2560 + col.val < 50257) :
    Z0 m c t (ix2 r col) = V m c main_arg0 (ix2 ⟨t.val / 20 * 512 + r.val, row_lt t r⟩ ⟨t.val % 20 * 2560 + col.val, h⟩) := by
  unfold Z0 Window.fill
  rw [dif_pos (moved0_of t (ix2 r col) h)]
  show V m c main_arg0 ((win0_0.blk t).view.emb _) = V m c main_arg0 _
  refine congrArg _ ?_
  obtain ⟨e0, e1⟩ := index0 t
  funext a; apply Fin.ext
  match a with
  | ⟨0, _⟩ => show win0_0.index t (0 : Fin 2) * 512 + 1 * r.val = t.val / 20 * 512 + r.val; rw [e0]; omega
  | ⟨1, _⟩ => show win0_0.index t (1 : Fin 2) * 2560 + 1 * col.val = t.val % 20 * 2560 + col.val; rw [e1]; omega
theorem Z1_kept (c : Dev nD) (t : Fin cfg0.N) (r : Fin 512) (col : Fin 2560) (h : t.val % 20 * 2560 + col.val < 50257) :
    Z1 m c t (ix2 r col) = V m c main_arg1 (ix2 ⟨t.val / 20 * 512 + r.val, row_lt t r⟩ ⟨t.val % 20 * 2560 + col.val, h⟩) := by
  unfold Z1 Window.fill
  rw [dif_pos (moved1_of t (ix2 r col) h)]
  show V m c main_arg1 ((win0_1.blk t).view.emb _) = V m c main_arg1 _
  refine congrArg _ ?_
  obtain ⟨e0, e1⟩ := index1 t
  funext a; apply Fin.ext
  match a with
  | ⟨0, _⟩ => show win0_1.index t (0 : Fin 2) * 512 + 1 * r.val = t.val / 20 * 512 + r.val; rw [e0]; omega
  | ⟨1, _⟩ => show win0_1.index t (1 : Fin 2) * 2560 + 1 * col.val = t.val % 20 * 2560 + col.val; rw [e1]; omega

/-- The summand: `log x[b, v] · y[b, v]` on the extended reals, extended by zero off the array. -/
def term (c : Dev nD) (b v : ℕ) : EReal :=
  if h : b < 2048 ∧ v < 50257 then
    FloatOps.mulf (F := Ideal) (FloatOps.log (F := Ideal) (φ := .f32) (V m c main_arg0 (ix2 ⟨b, h.1⟩ ⟨v, h.2⟩)))
      (V m c main_arg1 (ix2 ⟨b, h.1⟩ ⟨v, h.2⟩))
  else 0

/-- What point `n` adds to the accumulator: the sum of the summand over the tile's lanes inside the array. -/
def tileSum (c : Dev nD) (n : ℕ) : EReal :=
  ∑ r : Fin 512, ∑ col : Fin 2560,
    if n % 20 * 2560 + col.val < 50257 then term m c (n / 20 * 512 + r.val) (n % 20 * 2560 + col.val) else 0

end Cert.KernelIdeal.Hand

end
-- ==== Proof.TailIdeal.lean ====
import proofs.«119572_j19473381720640_2_alg».proof.Proof.FrameIdeal
import proofs.«119572_j19473381720640_2_alg».proof.Proof.ValueIdeal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The output array after the run

Only the last point of each half's sweep (`t = k · 40 + 39`) stores and writes back the 1×1×1 output block, to entry
`k` of the 2×1×1 result: zero minus what the accumulator then holds. -/

/-- The accumulator after position `n`, as a total function of `n`. -/
def accT (c : Dev nD) (n : ℕ) : Vec Ideal S1x1 .f32 := if h : n < cfg0.N then acc m c n h else k0_pay1 (F := Ideal)
theorem accT_eq (c : Dev nD) (t : Fin cfg0.N) : accT m c t.val = acc m c t.val t.isLt := dif_pos t.isLt

/-- The 2×1×1 result array after the run. -/
def outArr (c : Dev nD) : S2x1x1.Idx → Elt Ideal .f32 :=
  fun i => k0_pay3 (accT m c ((i 0).val * 40 + 39)) (ix3 (0 : Fin 1) (0 : Fin 1) (0 : Fin 1))

theorem index2 : ∀ t : Fin cfg0.N, win0_2.index t (0 : Fin 3) = t.val / 40 ∧ win0_2.index t (1 : Fin 3) = 0 ∧ win0_2.index t (2 : Fin 3) = 0 :=
  (by decide +kernel : ∀ t : Fin grid0.N, win0_2.index t (0 : Fin 3) = t.val / 40 ∧ win0_2.index t (1 : Fin 3) = 0 ∧ win0_2.index t (2 : Fin 3) = 0)

theorem one_idx (y z : S1x1x1.Idx) : y = z := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _

/-- What a last point writes back is its entry of `outArr`. -/
theorem flushed2_eq (c : Dev nD) (t : Fin cfg0.N) (hf : (cfg0.win 2).flush t = true) :
    (dats m 0 c).flushed 2 t = ((cfg0.win 2).blk t).view.read (Elt Ideal) (outArr m c) := by
  have h39 : t.val % 40 = 39 := (flush0_2 t).mp hf
  show (cfg0.win 2).cut (grid0.coords t) ((dats m 0 c).after 2 t) = _
  rw [after0_2]
  funext y
  show k0_pay3 (acc m c t.val t.isLt) ((cfg0.win 2).xinj (grid0.coords t) y) = outArr m c (((cfg0.win 2).blk t).view.emb y)
  unfold outArr
  have e : ((((cfg0.win 2).blk t).view.emb y) 0).val * 40 + 39 = t.val := by
    have e0 : ((((cfg0.win 2).blk t).view.emb y) 0).val = t.val / 40 := by
      show win0_2.index t (0 : Fin 3) * 1 + 1 * (y 0).val = t.val / 40
      have hy : (y 0).val < 1 := (y 0).isLt
      rw [(index2 t).1]; omega
    rw [e0]; omega
  rw [e, accT_eq]
  exact congrArg _ (one_idx _ _)

/-- Every entry of the result is some last point's block. -/
theorem cover2 (i : S2x1x1.Idx) : ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hN : (i 0).val * 40 + 39 < cfg0.N := by rw [show cfg0.N = 80 from N_0]; omega
  refine ⟨⟨(i 0).val * 40 + 39, hN⟩, (flush0_2 _).mpr (by show ((i 0).val * 40 + 39) % 40 = 39; omega), ?_⟩
  show i ∈ ((View.whole main_v0).slice (win0_2.rect ⟨(i 0).val * 40 + 39, hN⟩)).set
  rw [View.set_slice_whole, Rect.mem_set_unit]
  obtain ⟨e0, e1, e2⟩ := index2 ⟨(i 0).val * 40 + 39, hN⟩
  intro a
  match a with
  | ⟨0, _⟩ =>
    show win0_2.index ⟨(i 0).val * 40 + 39, hN⟩ (0 : Fin 3) * 1 ≤ (i 0).val ∧ (i 0).val < win0_2.index ⟨(i 0).val * 40 + 39, hN⟩ (0 : Fin 3) * 1 + 1
    rw [e0]; show ((i 0).val * 40 + 39) / 40 * 1 ≤ (i 0).val ∧ (i 0).val < ((i 0).val * 40 + 39) / 40 * 1 + 1; omega
  | ⟨1, _⟩ =>
    show win0_2.index ⟨(i 0).val * 40 + 39, hN⟩ (1 : Fin 3) * 1 ≤ (i 1).val ∧ (i 1).val < win0_2.index ⟨(i 0).val * 40 + 39, hN⟩ (1 : Fin 3) * 1 + 1
    rw [e1]; omega
  | ⟨2, _⟩ =>
    show win0_2.index ⟨(i 0).val * 40 + 39, hN⟩ (2 : Fin 3) * 1 ≤ (i 2).val ∧ (i 2).val < win0_2.index ⟨(i 0).val * 40 + 39, hN⟩ (2 : Fin 3) * 1 + 1
    rw [e2]; omega

theorem final2 (c : Dev nD) : (dats m 0 c).arrAt 2 cfg0.N = outArr m c :=
  (dats m 0 c).arrAt_eq_of_cover 2 (outArr m c) (fun t hf => flushed2_eq m c t hf) (cover2)

/-! ## The host line after the region: the sum of the two entries -/

/-- What @main's result buffer holds after the run: the host's sum, over the first axis, of the result array. -/
theorem tail_val (c : Dev nD) :
    Pipeline.afterTail₀ cfgs (dats m) 0 (V0 m) [hostOps1] c main_v1
      = Host.reduceAdd (F := Ideal) (outArr m c) (constant (F := Ideal) S_ .f32 0x00000000#32) reducesTo_S2x1x1_S1x1_d0 h_S_ := by
  unfold Pipeline.afterTail₀
  show StableHlo.after hostOps1 _ (Proc.devRef .tc main_v1) = _
  after_results
  exact congrArg (fun x => Host.reduceAdd (F := Ideal) x (constant (F := Ideal) S_ .f32 0x00000000#32) reducesTo_S2x1x1_S1x1_d0 h_S_)
    ((Pipeline.withArrays_arr spec0 launch0.win.arr_inj c _ _ 2).trans (final2 m c))

end Cert.KernelIdeal.Hand

end
-- ==== Proof.PayIdeal.lean ====
import proofs.«119572_j19473381720640_2_alg».proof.Proof.MaskIdeal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

/-! The three values the body stores, read at an index over the extended reals. -/

/-- The first stored value is the zero splat. -/
theorem pay1_apply (j : S1x1.Idx) : (k0_pay1 (F := Ideal) j : EReal) = 0 := by
  unfold k0_pay1
  rw [shapeCast_self]
  exact Ideal.ofBits_zero_f32

/-- Every index of the 1×1 shape is (0, 0). -/
theorem idx11 (j : S1x1.Idx) : j = ix2 (0 : Fin 1) (0 : Fin 1) := by
  have h0 : (j 0).val < 1 := idx2_lt0 j
  have h1 : (j 1).val < 1 := idx2_lt1 j
  funext c
  match c with
  | ⟨0, _⟩ => exact Fin.ext (by show (j 0).val = 0; omega)
  | ⟨1, _⟩ => exact Fin.ext (by show (j 1).val = 0; omega)

/-- The third stored value is zero minus the accumulator. -/
theorem pay3_apply (v : Vec Ideal S1x1 .f32) (j : S1x1x1.Idx) :
    (k0_pay3 (F := Ideal) v j : EReal) = 0 - (v (ix2 (0 : Fin 1) (0 : Fin 1)) : EReal) := by
  have h0 : (j 0).val < 1 := (j 0).isLt
  have h1 : (j 1).val < 1 := (j 1).isLt
  have h2 : (j 2).val < 1 := (j 2).isLt
  unfold k0_pay3
  refine (shapeCast_apply _ _ j (ix2 (0 : Fin 1) (0 : Fin 1)) ?_).trans ?_
  · rw [Shape.rowMajor_val_two, Shape.rowMajor_val_three]
    show 0 * 1 + 0 = ((j 0).val * 1 + (j 1).val) * 1 + (j 2).val
    omega
  · rw [subf_apply, broadcast_apply]
    show Ideal.ofBits .f32 0x00000000#32 - _ = _
    rw [Ideal.ofBits_zero_f32]

/-- The first reduction, over the 2560 lanes, at row `r`: the sum of the row. -/
theorem rowsum_apply (src : FVec Ideal S512x2560 .f32) (hφ : FKind.Formats .f32)
    (hacc : (0x00000000#32 : BitVec 32) = FKind.add.neutral .f32 hφ) (r : Fin 512) :
    multiReduction (F := Ideal) .add [1] S512 src 0x00000000#32 reduces_S512x2560_S512 hφ hacc (ix1 r)
      = ∑ col : Fin 2560, src (ix2 r col) := by
  refine (Ideal.multiReduction_add_single src 0x00000000#32 reduces_S512x2560_S512 hφ hacc (ix1 r)).trans ?_
  refine Finset.sum_congr rfl fun col _ => congrArg src ?_
  funext c
  match c with
  | ⟨0, _⟩ => exact Fin.ext rfl
  | ⟨1, _⟩ => exact Fin.ext rfl

/-- The second reduction, over the 512 rows of a one-column vector: the sum of the column. -/
theorem colsum_apply (src : FVec Ideal S512x1 .f32) (hφ : FKind.Formats .f32)
    (hacc : (0x00000000#32 : BitVec 32) = FKind.add.neutral .f32 hφ) :
    multiReduction (F := Ideal) .add [0] S1 src 0x00000000#32 reduces_S512x1_S1 hφ hacc (ix1 (0 : Fin 1))
      = ∑ r : Fin 512, src (ix2 r (0 : Fin 1)) := by
  refine (Ideal.multiReduction_add_single src 0x00000000#32 reduces_S512x1_S1 hφ hacc (ix1 (0 : Fin 1))).trans ?_
  refine Finset.sum_congr rfl fun r _ => congrArg src ?_
  funext c
  match c with
  | ⟨0, _⟩ => exact Fin.ext rfl
  | ⟨1, _⟩ => exact Fin.ext rfl

/-- A kept lane's term is the product of the logarithm and the weight; a dropped lane's is zero. -/
theorem term_apply (m : IVec S512x2560 1) (a b : Vec Ideal S512x2560 .f32) (y : S512x2560.Idx) :
    select m (mulf (log a) b) (broadcast S512x2560 (Scalar.ofBits (F := Ideal) .f32 0x00000000#32)) y
      = if m y = 1#1 then FloatOps.mulf (F := Ideal) (FloatOps.log (F := Ideal) (φ := .f32) (a y)) (b y) else (0 : EReal) := by
  show Scalar.select (m y) (FloatOps.mulf (F := Ideal) (FloatOps.log (F := Ideal) (φ := .f32) (a y)) (b y)) (Ideal.ofBits .f32 0x00000000#32) = _
  rw [Ideal.ofBits_zero_f32]
  rfl

/-- The second stored value is the accumulator plus the sum, over the 512 rows and the 2560 lanes, of the kept lanes'
    products of the logarithm and the weight. -/
theorem pay2_apply (i : grid0.Coords) (a b : Vec Ideal S512x2560 .f32) (v : Vec Ideal S1x1 .f32) (j : S1x1.Idx) :
    (k0_pay2 (F := Ideal) i a b v j : EReal) = (v (ix2 (0 : Fin 1) (0 : Fin 1)) : EReal) + ∑ r : Fin 512, ∑ col : Fin 2560,
      (if mask i (ix2 r col) = 1#1 then FloatOps.mulf (F := Ideal) (FloatOps.log (F := Ideal) (φ := .f32) (a (ix2 r col))) (b (ix2 r col)) else (0 : EReal)) := by
  rw [idx11 j]
  unfold k0_pay2
  dsimp only
  rw [shapeCast_self, addf_apply]
  refine congrArg (v (ix2 (0 : Fin 1) (0 : Fin 1)) + ·) ?_
  refine (shapeCast_apply _ _ (ix2 (0 : Fin 1) (0 : Fin 1)) (ix1 (0 : Fin 1)) ?_).trans ?_
  · rw [Shape.rowMajor_val_one, Shape.rowMajor_val_two]
    rfl
  refine (colsum_apply _ _ _).trans ?_
  refine Finset.sum_congr rfl fun r _ => ?_
  refine (shapeCast_apply _ _ (ix2 r (0 : Fin 1)) (ix1 r) ?_).trans ?_
  · rw [Shape.rowMajor_val_one, Shape.rowMajor_val_two]
    show r.val = r.val * 1 + 0
    omega
  refine (rowsum_apply _ _ _ r).trans ?_
  refine Finset.sum_congr rfl fun col _ => ?_
  exact term_apply _ a b (ix2 r col)

end Cert.KernelIdeal.Hand

end
-- ==== Proof.SumLaw.lean ====
import Mathlib.Data.EReal.Operations
import Mathlib.Algebra.BigOperators.Fin
import Mathlib.Algebra.BigOperators.Intervals
import Mathlib.Tactic

/-!
# Summing a 2048 × 50257 array of extended reals in tiles

The whole-array sum `∑ b < 2048, ∑ v < 50257, P b v` is compared with a tiled evaluation:
two halves `c` of 1024 rows; each half runs over 40 steps `q`; the combined step index
`x = c * 40 + q < 80` selects the 512-row band `x / 20 < 4` and the 2560-column band
`x % 20 < 20`.  The 20 column bands cover `51200 ≥ 50257` columns and the overhang is masked
to `0`.  Each half is negated and the two negated halves are added.

* Regrouping finite sums needs only commutativity and associativity of `+`.
* Pulling the negation out of the sum of the two halves needs each half to be finite
  (neither `⊥` nor `⊤`), since `-(x + y) = -x - y` can fail in `EReal` otherwise.
-/

open scoped BigOperators
open Finset

namespace Cert.Loss.SumLaw

section General

variable {M : Type*} [AddCommMonoid M]

/-- A sum over `x < a * b` is a double sum over `j < a`, `k < b` with `x = j * b + k`. -/
theorem sum_range_mul (a b : ℕ) (f : ℕ → M) :
    ∑ x ∈ range (a * b), f x = ∑ j ∈ range a, ∑ k ∈ range b, f (j * b + k) := by
  induction a with
  | zero => simp
  | succ a ih =>
    rw [Nat.succ_mul, Finset.sum_range_add, ih, Finset.sum_range_succ]

/-- The same with the product hidden behind an equation `n = a * b`. -/
theorem sum_range_eq_mul {n : ℕ} (a b : ℕ) (h : n = a * b) (f : ℕ → M) :
    ∑ x ∈ range n, f x = ∑ j ∈ range a, ∑ k ∈ range b, f (j * b + k) := by
  subst h
  exact sum_range_mul a b f

/-- A sum over `v < n` with `n ≤ a * b` is the double sum over the `a` bands of width `b`,
the positions `≥ n` being masked to `0`. -/
theorem sum_range_masked {n : ℕ} (a b : ℕ) (h : n ≤ a * b) (f : ℕ → M) :
    ∑ v ∈ range n, f v
      = ∑ j ∈ range a, ∑ k ∈ range b, (if j * b + k < n then f (j * b + k) else 0) := by
  have hsub : range n ⊆ range (a * b) := Finset.range_subset_range.2 h
  calc ∑ v ∈ range n, f v
      = ∑ v ∈ range n, (if v < n then f v else 0) :=
        Finset.sum_congr rfl (fun x hx => by rw [if_pos (Finset.mem_range.1 hx)])
    _ = ∑ v ∈ range (a * b), (if v < n then f v else 0) :=
        Finset.sum_subset hsub
          (fun x _ hx => by rw [if_neg (fun hlt => hx (Finset.mem_range.2 hlt))])
    _ = _ := sum_range_mul a b (fun x => if x < n then f x else 0)

/-- A double sum over `Fin m × Fin n` of a function of the underlying naturals is the double
sum over `range m × range n`. -/
theorem fin_sum2 (m n : ℕ) (g : ℕ → ℕ → M) :
    ∑ r : Fin m, ∑ c : Fin n, g r.val c.val = ∑ r ∈ range m, ∑ c ∈ range n, g r c := by
  refine Eq.trans (Finset.sum_congr rfl (fun r _ => ?_))
    (Finset.sum_range (fun r => ∑ c ∈ range n, g r c)).symm
  exact (Finset.sum_range (fun c => g r.val c)).symm

/-- A sum over `range 2` has two terms. -/
theorem sum_range_two (g : ℕ → M) : ∑ c ∈ range 2, g c = g 0 + g 1 := by
  rw [Finset.sum_range_succ, Finset.sum_range_one]

end General

/-- A finite sum of finite extended reals is finite. -/
theorem sum_finite {ι : Type*} (s : Finset ι) (f : ι → EReal)
    (h : ∀ i ∈ s, f i ≠ ⊥ ∧ f i ≠ ⊤) :
    ∑ i ∈ s, f i ≠ ⊥ ∧ ∑ i ∈ s, f i ≠ ⊤ := by
  refine Finset.sum_induction f (fun x => x ≠ ⊥ ∧ x ≠ ⊤) ?_ ?_ h
  · intro a b ha hb
    exact ⟨EReal.add_ne_bot_iff.2 ⟨ha.1, hb.1⟩, EReal.add_ne_top ha.2 hb.2⟩
  · exact ⟨EReal.zero_ne_bot, EReal.zero_ne_top⟩

/-- Negating two finite halves separately and adding them is negating their sum. -/
theorem neg_two (x y : EReal) (hx : x ≠ ⊥ ∧ x ≠ ⊤) :
    (0 : EReal) + ((0 - x) + (0 - y)) = -((0 : EReal) + (x + y)) := by
  rw [zero_add, zero_add, zero_sub, zero_sub,
    EReal.neg_add (Or.inl hx.1) (Or.inl hx.2), sub_eq_add_neg]

/-- The masked entry read at combined step `x`, row `r` of the band, column `col` of the band. -/
noncomputable def tile (P : ℕ → ℕ → EReal) (x r col : ℕ) : EReal :=
  if (x % 20) * 2560 + col < 50257
    then P ((x / 20) * 512 + r) ((x % 20) * 2560 + col) else 0

theorem tile_finite (P : ℕ → ℕ → EReal) (hfin : ∀ b v, P b v ≠ ⊥ ∧ P b v ≠ ⊤)
    (x r col : ℕ) : tile P x r col ≠ ⊥ ∧ tile P x r col ≠ ⊤ := by
  unfold tile
  split_ifs
  · exact hfin _ _
  · exact ⟨EReal.zero_ne_bot, EReal.zero_ne_top⟩

/-- The sum accumulated by half `c`. -/
noncomputable def half (P : ℕ → ℕ → EReal) (c : ℕ) : EReal :=
  ∑ q ∈ range 40, ∑ r ∈ range 512, ∑ col ∈ range 2560, tile P (c * 40 + q) r col

theorem half_finite (P : ℕ → ℕ → EReal) (hfin : ∀ b v, P b v ≠ ⊥ ∧ P b v ≠ ⊤) (c : ℕ) :
    half P c ≠ ⊥ ∧ half P c ≠ ⊤ :=
  sum_finite _ _ (fun _ _ => sum_finite _ _ (fun _ _ => sum_finite _ _
    (fun _ _ => tile_finite P hfin _ _ _)))

/-- The two halves together are the whole array: pure regrouping. -/
theorem halves_eq (P : ℕ → ℕ → EReal) :
    ∑ c ∈ range 2, half P c = ∑ b ∈ range 2048, ∑ v ∈ range 50257, P b v := by
  calc ∑ c ∈ range 2, half P c
      = ∑ x ∈ range (2 * 40), ∑ r ∈ range 512, ∑ col ∈ range 2560, tile P x r col :=
        (sum_range_mul 2 40
          (fun x => ∑ r ∈ range 512, ∑ col ∈ range 2560, tile P x r col)).symm
    _ = ∑ R ∈ range 4, ∑ j ∈ range 20, ∑ r ∈ range 512, ∑ col ∈ range 2560,
          tile P (R * 20 + j) r col :=
        sum_range_eq_mul 4 20 (by norm_num)
          (fun x => ∑ r ∈ range 512, ∑ col ∈ range 2560, tile P x r col)
    _ = ∑ R ∈ range 4, ∑ j ∈ range 20, ∑ r ∈ range 512, ∑ col ∈ range 2560,
          (if j * 2560 + col < 50257 then P (R * 512 + r) (j * 2560 + col) else 0) := by
        refine Finset.sum_congr rfl (fun R _ => Finset.sum_congr rfl (fun j hj =>
          Finset.sum_congr rfl (fun r _ => Finset.sum_congr rfl (fun col _ => ?_))))
        have hj' : j < 20 := Finset.mem_range.1 hj
        have h1 : (R * 20 + j) % 20 = j := by omega
        have h2 : (R * 20 + j) / 20 = R := by omega
        unfold tile
        rw [h1, h2]
    _ = ∑ R ∈ range 4, ∑ r ∈ range 512, ∑ j ∈ range 20, ∑ col ∈ range 2560,
          (if j * 2560 + col < 50257 then P (R * 512 + r) (j * 2560 + col) else 0) :=
        Finset.sum_congr rfl (fun R _ => Finset.sum_comm)
    _ = ∑ R ∈ range 4, ∑ r ∈ range 512, ∑ v ∈ range 50257, P (R * 512 + r) v :=
        Finset.sum_congr rfl (fun R _ => Finset.sum_congr rfl (fun r _ =>
          (sum_range_masked 20 2560 (by norm_num) (fun v => P (R * 512 + r) v)).symm))
    _ = ∑ b ∈ range 2048, ∑ v ∈ range 50257, P b v :=
        (sum_range_eq_mul 4 512 (by norm_num)
          (fun b => ∑ v ∈ range 50257, P b v)).symm

theorem loss_law (P : ℕ → ℕ → EReal) (hfin : ∀ b v, P b v ≠ ⊥ ∧ P b v ≠ ⊤) :
    (0 : EReal) + ∑ c : Fin 2, ((0 : EReal) - ∑ q ∈ Finset.range 40, ∑ r : Fin 512, ∑ col : Fin 2560,
        (if ((c.val * 40 + q) % 20) * 2560 + col.val < 50257
          then P (((c.val * 40 + q) / 20) * 512 + r.val) (((c.val * 40 + q) % 20) * 2560 + col.val) else 0))
      = -((0 : EReal) + ∑ b : Fin 2048, ∑ v : Fin 50257, P b.val v.val) := by
  -- the sums over `Fin` are sums over `range`
  have hS : ∀ c : ℕ,
      (∑ q ∈ range 40, ∑ r : Fin 512, ∑ col : Fin 2560, tile P (c * 40 + q) r.val col.val)
        = half P c :=
    fun c => Finset.sum_congr rfl
      (fun q _ => fin_sum2 512 2560 (fun r col => tile P (c * 40 + q) r col))
  have hR : ∑ b : Fin 2048, ∑ v : Fin 50257, P b.val v.val
      = ∑ b ∈ range 2048, ∑ v ∈ range 50257, P b v := fin_sum2 2048 50257 P
  have hL : ∑ c : Fin 2, ((0 : EReal) - ∑ q ∈ range 40, ∑ r : Fin 512, ∑ col : Fin 2560,
        tile P (c.val * 40 + q) r.val col.val)
      = ∑ c ∈ range 2, ((0 : EReal) - half P c) := by
    refine Eq.trans (Finset.sum_congr rfl (fun c _ => ?_))
      (Finset.sum_range (fun c => (0 : EReal) - half P c)).symm
    rw [hS c.val]
  show (0 : EReal) + ∑ c : Fin 2, ((0 : EReal) - ∑ q ∈ range 40, ∑ r : Fin 512, ∑ col : Fin 2560,
        tile P (c.val * 40 + q) r.val col.val)
      = -((0 : EReal) + ∑ b : Fin 2048, ∑ v : Fin 50257, P b.val v.val)
  rw [hL, hR, ← halves_eq P, sum_range_two, sum_range_two]
  exact neg_two (half P 0) (half P 1) (half_finite P hfin 0)

end Cert.Loss.SumLaw
-- ==== Proof.PreDecode.lean ====
/-
  The precondition of this certificate, read at the ideal instance (float values are extended reals).
  The printed predicate is the conjunction of three "for all entries" statements over the two
  [2048, 50257] arguments x0 and x1:  |x0| < +∞,  |x1| < +∞,  x0 > 0.  Each is printed as a reduction by
  "and" of an entrywise comparison into a rank-0 result, and the hypothesis says the conjunction is 1.
  Read back entry by entry: the absolute value of an extended real a is max a (-a), which is below ⊤
  exactly when a is neither ⊤ nor ⊥, that is, when a is (the image of) a real number; and the pattern
  0x00000000 is the real 0, so the third comparison says that real is positive. Consequently the
  logarithm of an entry of x0 is the real logarithm of a positive real, and its product with an entry
  of x1 is a real number: neither ⊥ nor ⊤.
-/
import proofs.«119572_j19473381720640_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Loss.PreDecode

open Idealize.ShloMosaic

variable [Cert.Pre_finite_inputs.Facts]

/-- A rank-0 shape has exactly one index (the empty tuple). -/
instance : Subsingleton Cert.Pre_finite_inputs.S_.Idx := ⟨fun a b => funext fun d => d.elim0⟩

/-- The f32 pattern 0x7F800000 (all-ones exponent, zero fraction, sign clear) denotes +∞. -/
theorem ofBits_inf_f32 : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- An ordered "less than" of extended reals that came out 1 is the strict order. -/
theorem cmp_olt_eq_one {a b : EReal} (h : Ideal.cmp .olt a b = 1#1) : a < b := by
  unfold Ideal.cmp at h
  exact of_decide_eq_true ((ofBool_eq_one _).1 h)

/-- An ordered "greater than" of extended reals that came out 1 is the strict order, reversed. -/
theorem cmp_ogt_eq_one {a b : EReal} (h : Ideal.cmp .ogt a b = 1#1) : b < a := by
  unfold Ideal.cmp at h
  exact of_decide_eq_true ((ofBool_eq_one _).1 h)

/-- An extended real whose absolute value max a (-a) is below ⊤ is a real number:
    at ⊤ the maximum is ⊤, and at ⊥ it is -⊥ = ⊤ as well. -/
theorem real_of_abs_lt_top (a : EReal) (h : max a (-a) < (⊤ : EReal)) : ∃ r : ℝ, a = ((r : ℝ) : EReal) := by
  induction a using EReal.rec with
  | bot => exact absurd h (by simp)
  | top => exact absurd h (by simp)
  | coe r => exact ⟨r, rfl⟩

/-- THE PRECONDITION READ ENTRY BY ENTRY. The hypothesis is the printed predicate's value at its one
    (rank-0) index; the two "and"s split it into the three reductions, and a reduction by "and" into a
    one-index result that is 1 had a 1 at every entry. At an entry the printed terms are, by unfolding,
    the three comparisons below (a rank-0 constant broadcast to the full shape reads the constant). -/
theorem pre_elems (x0 x1 : FVec Ideal Cert.Pre_finite_inputs.S2048x50257 .f32)
    (h : Cert.Pre_finite_inputs.fn (F := Ideal) x0 x1 = fun _ => 1#1) (j : Cert.Pre_finite_inputs.S2048x50257.Idx) :
    Ideal.cmp .olt (max (x0 j) (-(x0 j))) (Ideal.ofBits .f32 0x7F800000#32) = 1#1
    ∧ Ideal.cmp .olt (max (x1 j) (-(x1 j))) (Ideal.ofBits .f32 0x7F800000#32) = 1#1
    ∧ Ideal.cmp .ogt (x0 j) (Ideal.ofBits .f32 0x00000000#32) = 1#1 := by
  have e := congrFun h ValueIdx.ix0
  unfold Cert.Pre_finite_inputs.fn at e
  dsimp only at e
  obtain ⟨e12, e3⟩ := IntOp.andi_eq_one.1 e
  obtain ⟨e1, e2⟩ := IntOp.andi_eq_one.1 e12
  exact ⟨Host.reduce_andi_all _ _ _ _ _ e1 j, Host.reduce_andi_all _ _ _ _ _ e2 j,
    Host.reduce_andi_all _ _ _ _ _ e3 j⟩

/-- Under the precondition every entry of the first argument is a positive real and every entry of the second a real. -/
theorem entries_real (x0 x1 : FVec Ideal Cert.Pre_finite_inputs.S2048x50257 .f32)
    (h : Cert.Pre_finite_inputs.fn (F := Ideal) x0 x1 = fun _ => 1#1) (j : Cert.Pre_finite_inputs.S2048x50257.Idx) :
    (∃ r : ℝ, 0 < r ∧ x0 j = ((r : ℝ) : EReal)) ∧ (∃ s : ℝ, x1 j = ((s : ℝ) : EReal)) := by
  obtain ⟨h0, h1, hp⟩ := pre_elems x0 x1 h j
  rw [ofBits_inf_f32] at h0 h1
  rw [Ideal.ofBits_zero_f32] at hp
  obtain ⟨r, hr⟩ := real_of_abs_lt_top (x0 j) (cmp_olt_eq_one h0)
  obtain ⟨s, hs⟩ := real_of_abs_lt_top (x1 j) (cmp_olt_eq_one h1)
  have hpos : (0 : EReal) < x0 j := cmp_ogt_eq_one hp
  rw [hr] at hpos
  exact ⟨⟨r, EReal.coe_pos.1 hpos, hr⟩, ⟨s, hs⟩⟩

/-- Hence the product log(x0 j) · x1 j is a real number, for the vector unit's log and for the host's log alike (at the ideal instance both are Ideal.log). -/
theorem term_finite (x0 x1 : FVec Ideal Cert.Pre_finite_inputs.S2048x50257 .f32)
    (h : Cert.Pre_finite_inputs.fn (F := Ideal) x0 x1 = fun _ => 1#1) (j : Cert.Pre_finite_inputs.S2048x50257.Idx) :
    (FloatOps.mulf (F := Ideal) (FloatOps.log (F := Ideal) (φ := .f32) (x0 j)) (x1 j) ≠ (⊥ : EReal) ∧ FloatOps.mulf (F := Ideal) (FloatOps.log (F := Ideal) (φ := .f32) (x0 j)) (x1 j) ≠ (⊤ : EReal))
    ∧ FloatOps.hostUnary (F := Ideal) (φ := .f32) .log (x0 j) = FloatOps.log (F := Ideal) (φ := .f32) (x0 j) := by
  obtain ⟨⟨r, hr0, hr⟩, ⟨s, hs⟩⟩ := entries_real x0 x1 h j
  -- the logarithm of a positive real is the real logarithm, and a product of two reals is a real
  have hl : FloatOps.mulf (F := Ideal) (FloatOps.log (F := Ideal) (φ := .f32) (x0 j)) (x1 j)
      = ((Real.log r * s : ℝ) : EReal) := by
    show Ideal.log (x0 j) * x1 j = ((Real.log r * s : ℝ) : EReal)
    rw [hr, hs, Ideal.log_coe, if_neg (not_le.2 hr0), EReal.coe_mul]
  refine ⟨?_, rfl⟩
  rw [hl]
  exact ⟨EReal.coe_ne_bot _, EReal.coe_ne_top _⟩

end Cert.Loss.PreDecode

end
-- ==== Proof.RefRead.lean ====
/- The reference program's result read at an index, at the ideal instance (floats are extended reals):
   the single element of the 1×1 result is minus (zero plus the sum over all rows b and columns v of
   log (x0 b v) * x1 b v). -/
import proofs.«119572_j19473381720640_2_alg».proof.Proof.Gen.ReferenceIdeal.Read
import Idealize.ShloMosaic.Lib.ValueIdx
import Idealize.ShloMosaic.PureOps.Ideal.Laws

noncomputable section

namespace Cert.Loss.RefRead

open Idealize.ShloMosaic Idealize.ShloMosaic.ValueIdx Cert.ReferenceIdeal

/-- A reshape of a rank-0 value reads its one element: a rank-0 shape has the single index `ix0`. -/
theorem v4_apply {F : FTy → Type} [FloatOps F]
    (x0 x1 : (⟨S2048x50257, .f32⟩ : BufTy).Contents (Elt F)) (i : S1x1.Idx) :
    Cert.ReferenceIdeal.Read.val_main_v4 (F := F) x0 x1 i
      = Cert.ReferenceIdeal.Read.val_main_v3 (F := F) x0 x1 ix0 := by
  unfold Cert.ReferenceIdeal.Read.val_main_v4 shapeCast
  exact congrArg _ (eq_ix0 _)

/-- The reference's result at any index of the 1×1 output. -/
theorem ref_apply (x0 x1 : (⟨S2048x50257, .f32⟩ : BufTy).Contents (Elt Ideal)) (i : S1x1.Idx) :
    (Cert.ReferenceIdeal.Read.val_main_v4 (F := Ideal) x0 x1 i : EReal)
      = -((0 : EReal) + ∑ b : Fin 2048, ∑ v : Fin 50257,
          FloatOps.mulf (F := Ideal) (FloatOps.log (F := Ideal) (φ := .f32) (x0 (ix2 b v))) (x1 (ix2 b v))) := by
  -- the reshape reads the rank-0 element; that element is the negation of the total sum
  rw [v4_apply, Cert.ReferenceIdeal.Read.val_main_v3_apply, Cert.ReferenceIdeal.Read.val_main_v2_apply,
    Cert.ReferenceIdeal.Read.val_main_cst_apply]
  -- the initial value is the constant with all bits zero, which is 0
  rw [Ideal.hostNegf_def, Ideal.negf_def, Ideal.ofBits_def, Ideal.ofBits_zero_f32]
  -- the sum over the rank-2 index set is the double sum over rows and columns
  rw [sum_idx2]
  rfl

end Cert.Loss.RefRead

end
-- ==== Proof.BridgeIdeal.lean ====
import proofs.«119572_j19473381720640_2_alg».proof.Proof.TailIdeal
import proofs.«119572_j19473381720640_2_alg».proof.Proof.PayIdeal
import proofs.«119572_j19473381720640_2_alg».proof.Proof.SumLaw
import proofs.«119572_j19473381720640_2_alg».proof.Proof.PreDecode
import proofs.«119572_j19473381720640_2_alg».proof.Proof.RefRead
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The accumulator is the running sum of the tiles' sums -/

/-- The masked lane sum the body forms at point `t` is the tile's sum of the summand over the lanes inside the array. -/
theorem tile_eq (c : Dev nD) (t : Fin cfg0.N) :
    (∑ r : Fin 512, ∑ col : Fin 2560,
      (if mask (grid0.coords t) (ix2 r col) = 1#1 then
        FloatOps.mulf (F := Ideal) (FloatOps.log (F := Ideal) (φ := .f32) (Z0 m c t (ix2 r col))) (Z1 m c t (ix2 r col)) else (0 : EReal)))
      = tileSum m c t.val := by
  unfold tileSum
  refine Finset.sum_congr rfl fun r _ => Finset.sum_congr rfl fun col _ => ?_
  by_cases h : t.val % 20 * 2560 + col.val < 50257
  · rw [if_pos ((mask_iff t r col).mpr h), if_pos h, Z0_kept m c t r col h, Z1_kept m c t r col h]
    unfold term; rw [dif_pos ⟨row_lt t r, h⟩]
  · rw [if_neg (fun hm => h ((mask_iff t r col).mp hm)), if_neg h]

theorem accT_first (c : Dev nD) (n : ℕ) (hn : n < 80) (h0 : n % 40 = 0) :
    (accT m c n (ix2 (0 : Fin 1) (0 : Fin 1)) : EReal) = tileSum m c n := by
  have hN : n < cfg0.N := by rw [show cfg0.N = 80 from N_0]; exact hn
  have e : accT m c n = acc m c n hN := accT_eq m c ⟨n, hN⟩
  rw [e, acc_first m c ⟨n, hN⟩ h0, pay2_apply, pay1_apply, zero_add]
  exact tile_eq m c ⟨n, hN⟩

theorem accT_next (c : Dev nD) (n : ℕ) (hn : n < 80) (h0 : ¬n % 40 = 0) :
    (accT m c n (ix2 (0 : Fin 1) (0 : Fin 1)) : EReal) = (accT m c (n - 1) (ix2 (0 : Fin 1) (0 : Fin 1)) : EReal) + tileSum m c n := by
  have hN : n < cfg0.N := by rw [show cfg0.N = 80 from N_0]; exact hn
  have e : accT m c n = acc m c n hN := accT_eq m c ⟨n, hN⟩
  have e' : accT m c (n - 1) = acc m c (n - 1) (Nat.lt_of_le_of_lt (Nat.sub_le _ _) hN) := dif_pos _
  rw [e, e', acc_next m c ⟨n, hN⟩ h0, pay2_apply]
  exact congrArg _ (tile_eq m c ⟨n, hN⟩)

/-- After step `q` of half `k`'s sweep the accumulator holds the sum of the tiles' sums so far. -/
theorem acc_sum (c : Dev nD) (k : Fin 2) : ∀ (q : ℕ), q < 40 →
    (accT m c (k.val * 40 + q) (ix2 (0 : Fin 1) (0 : Fin 1)) : EReal) = ∑ p ∈ Finset.range (q + 1), tileSum m c (k.val * 40 + p)
  | 0, _ => by
    have hk := k.isLt
    rw [accT_first m c (k.val * 40 + 0) (by omega) (by omega), Finset.sum_range_one]
  | q + 1, hq => by
    have hk := k.isLt
    rw [accT_next m c (k.val * 40 + (q + 1)) (by omega) (by omega), show k.val * 40 + (q + 1) - 1 = k.val * 40 + q from by omega,
      acc_sum c k q (by omega), Finset.sum_range_succ (fun p => tileSum m c (k.val * 40 + p)) (q + 1)]

/-! ## The kernel's result -/

/-- @main's result: zero plus the two halves' entries, each zero minus the half's sum of tile sums. -/
theorem kernel_val (c : Dev nD) (j : S1x1.Idx) :
    (Host.reduceAdd (F := Ideal) (outArr m c) (constant (F := Ideal) S_ .f32 0x00000000#32) reducesTo_S2x1x1_S1x1_d0 h_S_ j : EReal)
      = (0 : EReal) + ∑ k : Fin 2, ((0 : EReal) - ∑ q ∈ Finset.range 40, tileSum m c (k.val * 40 + q)) := by
  simp only [Host.reduceAdd, Ideal.hostReduceAdd_def]
  refine (Ideal.hostReduceAdd_single reducesTo_S2x1x1_S1x1_d0 (by decide) _ _ j).trans ?_
  refine congrArg₂ (fun a b : EReal => a + b) Ideal.ofBits_zero_f32 (Finset.sum_congr rfl fun k _ => ?_)
  unfold outArr
  rw [pay3_apply]
  show (0 : EReal) - (accT m c (k.val * 40 + 39) (ix2 (0 : Fin 1) (0 : Fin 1)) : EReal) = _
  rw [acc_sum m c k 39 (by omega)]

/-! ## The two programs' results are one number

With every entry of the first argument a positive real and every entry of the second a real, each summand
`log x · y` is a real; so each half's sum is a real, negation distributes over the two halves' sum, and the tiled sum
is the whole sum. -/

theorem term_fin [Cert.Pre_finite_inputs.Facts] (c : Dev nD)
    (hpre : Cert.Pre_finite_inputs.fn (F := Ideal) (m ((c.tc : Thread nD τ).loc main_arg0)) (m ((c.tc : Thread nD τ).loc main_arg1)) = fun _ => 1#1)
    (b v : ℕ) : term m c b v ≠ ⊥ ∧ term m c b v ≠ ⊤ := by
  unfold term
  split
  · rename_i h
    exact (Cert.Loss.PreDecode.term_finite _ _ hpre (ix2 ⟨b, h.1⟩ ⟨v, h.2⟩)).1
  · exact ⟨EReal.zero_ne_bot, EReal.zero_ne_top⟩

/-- The kernel's result is the reference's, entry by entry. -/
theorem result_eq [Cert.Pre_finite_inputs.Facts] (c : Dev nD)
    (hpre : Cert.Pre_finite_inputs.fn (F := Ideal) (m ((c.tc : Thread nD τ).loc main_arg0)) (m ((c.tc : Thread nD τ).loc main_arg1)) = fun _ => 1#1)
    (j : S1x1.Idx) :
    (Host.reduceAdd (F := Ideal) (outArr m c) (constant (F := Ideal) S_ .f32 0x00000000#32) reducesTo_S2x1x1_S1x1_d0 h_S_ j : EReal)
      = (Cert.ReferenceIdeal.Read.val_main_v4 (F := Ideal) (m ((c.tc : Thread nD τ).loc main_arg0)) (m ((c.tc : Thread nD τ).loc main_arg1)) j : EReal) := by
  rw [kernel_val m c j, Cert.Loss.RefRead.ref_apply]
  have hl := Cert.Loss.SumLaw.loss_law (term m c) (term_fin m c hpre)
  refine Eq.trans (by unfold tileSum; exact hl) ?_
  refine congrArg (fun s : EReal => -((0 : EReal) + s)) (Finset.sum_congr rfl fun b _ => Finset.sum_congr rfl fun v _ => ?_)
  unfold term
  rw [dif_pos ⟨b.isLt, v.isLt⟩]
  rfl

end Cert.KernelIdeal.Hand

end
-- ==== Proof.lean ====
/- The proof of `Cert.Claim`: the three frames, the (empty) idealization ledger, and the equality of the two
   idealized programs' results over the extended reals.

   The kernel computes `-Σ log(x)·y` over a [2048, 50257] pair of arrays in two halves of 1024 rows; each half sweeps its
   2 × 20 tiles of 512 × 2560 entries, adding each tile's sum (the last column band masked to the 1617 columns inside the
   array) into a 1×1 accumulator, and at its last tile stores zero minus the accumulator; the host adds the two halves'
   entries. The reference is `-(Σ log(x)·y)` over the whole arrays. Over the extended reals the two agree when every
   summand is a real number — which the precondition gives: every entry finite, and every entry under the logarithm
   positive — because then each half's sum is real and negation distributes over the sum of the halves.

   The frames of the two kernel programs are proved over the library's launch theorem from a body triple per
   situation of a grid point (first, middle, last tile of a half); the reference's frame is its generated run. -/
import proofs.«119572_j19473381720640_2_alg».proof.Defs
import proofs.«119572_j19473381720640_2_alg».proof.Proof.Gen.Kernel
import proofs.«119572_j19473381720640_2_alg».proof.Proof.Gen.KernelIdeal
import proofs.«119572_j19473381720640_2_alg».proof.Proof.Gen.ReferenceIdeal
import proofs.«119572_j19473381720640_2_alg».proof.Proof.Gen.ReferenceIdeal.Run
import proofs.«119572_j19473381720640_2_alg».proof.Proof.Gen.ReferenceIdeal.Read
import proofs.«119572_j19473381720640_2_alg».proof.Proof.Gen.Pre_finite_inputs
import proofs.«119572_j19473381720640_2_alg».proof.Proof.FrameBits
import proofs.«119572_j19473381720640_2_alg».proof.Proof.FrameIdeal
import proofs.«119572_j19473381720640_2_alg».proof.Proof.BridgeIdeal
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the same 1×1 result: the kernel's tiled, halved and negated sum is the
    reference's negated whole sum, every summand being a real number under the precondition. -/
theorem algebraic : Cert.algebraic_KernelIdeal_ReferenceIdeal := by
  intro m ρ m' ρ' hpre hagree
  refine ⟨fun c => Cert.ReferenceIdeal.Read.val_main_v4 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_main (F := Ideal) m ρ)
    · rw [(h c).2 Cert.KernelIdeal.main_v1 (Pipeline.mem_restRefs_of _ rfl (fun w => by fin_cases w <;> decide)),
        Cert.KernelIdeal.Hand.tail_val m c]
      funext j
      exact Cert.KernelIdeal.Hand.result_eq m c (hpre c) j
    · exact ((h c).1 0).trans (((Cert.KernelIdeal.Hand.dats m 0 c).arrAt_in 0 rfl _).trans
        ((Cert.KernelIdeal.Hand.A_eq m c 0).trans (Cert.KernelIdeal.Gen.V_main_arg0 m c)))
    · exact ((h c).1 1).trans (((Cert.KernelIdeal.Hand.dats m 0 c).arrAt_in 1 rfl _).trans
        ((Cert.KernelIdeal.Hand.A_eq m c 1).trans (Cert.KernelIdeal.Gen.V_main_arg1 m c)))
  · refine (θ_run Cert.ReferenceIdeal.defs _ _).mono (fun _ h c => ⟨?_, (h c).2⟩)
      (Cert.ReferenceIdeal.Value.run (F := Ideal) m' ρ')
    rw [(h c).1, Cert.ReferenceIdeal.Read.val_main_v4_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
